-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S2000 : Shape := ⟨1, ![2000]⟩
abbrev S2000x1 : Shape := ⟨2, ![2000, 1]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 92
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S50000x128, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S1x64, .f32⟩
  | .hbm, ⟨90, _⟩ => ⟨S1x64, .f32⟩
  | .hbm, ⟨91, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  broadcasts_S2000x1_S2000x64 : S2000x1.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S50000x128, .f32⟩
  | 77 => ⟨S50000x128, .f32⟩
  | 78 => ⟨S50000x128, .f32⟩
  | 79 => ⟨S_, .f32⟩
  | 80 => ⟨S50000, .f32⟩
  | 81 => ⟨S50000x1, .f32⟩
  | 82 => ⟨S_, .f32⟩
  | 83 => ⟨S50000x1, .f32⟩
  | 84 => ⟨S50000x1, .f32⟩
  | 85 => ⟨S50000x128, .f32⟩
  | 86 => ⟨S50000x128, .f32⟩
  | 87 => ⟨S_, .f32⟩
  | 88 => ⟨S50000x1, .f32⟩
  | 89 => ⟨S50000x1, .f32⟩
  | 90 => ⟨S50000x1, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x64, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x64, .f32⟩
  | 10 => ⟨S50000x64, .f32⟩
  | 11 => ⟨S_, .f32⟩
  | 12 => ⟨S50000x1, .f32⟩
  | 13 => ⟨S50000x1, .f32⟩
  | 14 => ⟨S50000x1, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S_, .f32⟩
  | 24 => ⟨S50000x64, .f32⟩
  | 25 => ⟨S50000x64, .f32⟩
  | 26 => ⟨S50000x64, .f32⟩
  | 27 => ⟨S_, .f32⟩
  | 28 => ⟨S50000, .f32⟩
  | 29 => ⟨S50000x1, .f32⟩
  | 30 => ⟨S50000x1, .f32⟩
  | 31 => ⟨S_, .f32⟩
  | 32 => ⟨S50000x1, .f32⟩
  | 33 => ⟨S50000x1, .f32⟩
  | 34 => ⟨S50000x64, .f32⟩
  | 35 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_cst : Ref sig .tc := ⟨.hbm, 99, rfl⟩
abbrev main_call1_v0 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_cst_20 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_21 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_call2_cst : Ref sig .tc := ⟨.hbm, 151, rfl⟩
abbrev main_call2_v0 : Ref sig .tc := ⟨.hbm, 152, rfl⟩
abbrev main_v113 : Ref sig .tc := ⟨.hbm, 153, rfl⟩
abbrev main_v114 : Ref sig .tc := ⟨.hbm, 154, rfl⟩
abbrev main_cst_22 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_23 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The tiled program's run, with its result named.

  The program is nine segments in a row — three stretches of host operations, the first product, a stretch, the first
  normalisation, the second product, a stretch, the second normalisation — and the contents of every buffer at each
  boundary are a fold from the launch memory: a host stretch applies its operations, a region replaces its output array
  by what its write-backs leave and keeps every other buffer. Every weakly fair execution terminates without a fault in
  a state whose unscoped buffers hold the last boundary's contents; read at the result buffer that is the value this
  certificate is about, and read at an argument it is the launch memory.
-/
import proofs.«133334_j49546742726739_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument as launched. -/
theorem run : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.ValueRun

end
-- ==== Proof.Spec.lean ====
/-
  The mathematics both programs compute, stated once over plain index types, with no program in sight.

  A graph-convolution layer here is: a dense product `h = x · W`; a gather / scale / scatter-add over the
  edge list (shared verbatim by the two programs, so never opened); then, ROW BY ROW of the aggregated array,
  `y = a + b`, the row's mean `μ = (∑ y) / D`, its variance `v = (∑ (y - μ)²) / D`, the normalised row
  `(y - μ) · (v + ε)^(-1/2) · g + β`, and `max · 0`. The last layer divides each row by `max (√(∑ h²)) tiny`.

  Every entry of a result depends on ONE row of the input, so a tiling of the rows into blocks changes
  nothing: a block of the result is the same function of the same rows. That is the whole bridge between
  the tiled program and the whole-array one, and no law of arithmetic beyond it is used: the sums below are
  taken in one fixed order over `Fin D` on both sides.

  Literals stay words (`Ideal.ofBits .f32 0x…`): the same word stands on both sides and is never evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A `r × c` array of extended reals. -/
abbrev Arr (r c : Nat) : Type := (⟨2, ![r, c]⟩ : Shape).Idx → EReal

/-- The row coordinate of an index, as a number below the row count itself. -/
def rowOf {r c : Nat} (i : (⟨2, ![r, c]⟩ : Shape).Idx) : Fin r := ⟨(i 0).val, (i 0).isLt⟩
/-- The column coordinate of an index, as a number below the column count itself. -/
def colOf {r c : Nat} (i : (⟨2, ![r, c]⟩ : Shape).Idx) : Fin c := ⟨(i 1).val, (i 1).isLt⟩

@[simp] theorem rowOf_ix2 {r c : Nat} (p : Fin r) (q : Fin c) : rowOf (ix2 p q) = p := rfl
@[simp] theorem colOf_ix2 {r c : Nat} (p : Fin r) (q : Fin c) : colOf (ix2 p q) = q := rfl

/-! ## The dense product -/

/-- `(x · w) (r, q) = ∑ₖ x (r, k) · w (k, q)`: entry `(r, q)` reads row `r` of `x` and column `q` of `w`. -/
def matProd {n K d : Nat} (x : Arr n K) (w : Arr K d) : Arr n d :=
  fun i => ∑ k : Fin K, x (ix2 (rowOf i) k) * w (ix2 k (colOf i))

/-! ## One row: mean, variance, normalise, clamp at zero; and the row's Euclidean normalisation -/

/-- The mean of a row, its sum divided by the literal count `n` (the float `D`, kept as given). -/
def rowMean {D : Nat} (n : EReal) (y : Fin D → EReal) : EReal := Ideal.div (∑ k : Fin D, y k) n

/-- The mean square deviation of a row from its mean. -/
def rowVar {D : Nat} (n : EReal) (y : Fin D → EReal) : EReal :=
  Ideal.div (∑ k : Fin D, (y k - rowMean n y) * (y k - rowMean n y)) n

/-- Entry `q` of the normalised, scaled, shifted row, clamped below at `z`. -/
def rowNormRelu {D : Nat} (n eps z : EReal) (y g β : Fin D → EReal) (q : Fin D) : EReal :=
  max ((y q - rowMean n y) * Ideal.rsqrt (rowVar n y + eps) * g q + β q) z

/-- Entry `q` of a row divided by its Euclidean length, the length clamped below at `tiny`. -/
def rowUnit {D : Nat} (tiny : EReal) (h : Fin D → EReal) (q : Fin D) : EReal :=
  Ideal.div (h q) (max (Ideal.sqrt (∑ k : Fin D, h k * h k)) tiny)

/-! ## The same, over an array: each row by itself -/

/-- Row `r` of `a + b` (the bias `b` a single row added to every row). -/
def biasedRow {n D : Nat} (a : Arr n D) (b : Arr 1 D) (r : Fin n) : Fin D → EReal :=
  fun k => a (ix2 r k) + b (ix2 0 k)

/-- A one-row array as a function of its column. -/
def theRow {D : Nat} (g : Arr 1 D) : Fin D → EReal := fun k => g (ix2 0 k)

/-- Bias, normalise each row, scale, shift, clamp at `z`. -/
def normRelu {n D : Nat} (cnt eps z : EReal) (a : Arr n D) (b g β : Arr 1 D) : Arr n D :=
  fun i => rowNormRelu cnt eps z (biasedRow a b (rowOf i)) (theRow g) (theRow β) (colOf i)

/-- The same, then each row divided by its clamped Euclidean length. -/
def normReluUnit {n D : Nat} (cnt eps z tiny : EReal) (a : Arr n D) (b g β : Arr 1 D) : Arr n D :=
  fun i => rowUnit tiny (fun q => rowNormRelu cnt eps z (biasedRow a b (rowOf i)) (theRow g) (theRow β) q) (colOf i)

/-! ## The literals of this program, as the words they are printed with -/

/-- `128.0`. -/
abbrev c128 : EReal := Ideal.ofBits .f32 0x43000000#32
/-- `64.0`. -/
abbrev c64 : EReal := Ideal.ofBits .f32 0x42800000#32
/-- The variance's `ε` (the float nearest `1e-5`). -/
abbrev cEps : EReal := Ideal.ofBits .f32 0x3727C5AC#32
/-- The clamp `0.0`. -/
abbrev cZero : EReal := Ideal.ofBits .f32 0x00000000#32
/-- The length's floor (the float nearest `1e-12`). -/
abbrev cTiny : EReal := Ideal.ofBits .f32 0x2B8CBCCC#32

end Cert.Spec

end
-- ==== Proof.RefStages.lean ====
/-
  The reference program's four arithmetic stages, each as the function of the specification it is.

  Every stage of the reference is read at an index from its operands at an index. Chaining those readings from a
  stage's last operation down to the aggregated array plus the bias row gives, entry by entry, the specification's
  formula: a dense product is the sum over the contracted axis; a normalised layer is, row by row, the bias added,
  the row's mean and mean square deviation (each a sum over the feature axis divided by the literal count), the
  reciprocal square root, scale, shift and the clamp at zero; the last layer then divides each row by its clamped
  Euclidean length. The aggregated arrays and the three one-row arrays stay folded: they stand on both sides.
-/
import proofs.«133334_j49546742726739_1_alg».proof.Proof.RefRead
import proofs.«133334_j49546742726739_1_alg».proof.Proof.Spec
import Idealize.ShloMosaic.Lib.ValueIdx
import Idealize.ShloMosaic.PureOps.Ideal.Laws

noncomputable section

open scoped BigOperators

namespace Cert.ReferenceIdeal.Stages

open Cert.ReferenceIdeal Cert.ReferenceIdeal.Read Idealize.ShloMosaic Idealize.ShloMosaic.ValueIdx Cert.Spec

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x64, .f32⟩ : BufTy).Contents (Elt Ideal)) (x7 x8 x9 : (⟨S64, .f32⟩ : BufTy).Contents (Elt Ideal))

/-! ## The first dense product -/

/-- Entry `(r, q)` of the first product is `∑ₖ x (r, k) · W₁ (k, q)`. -/
theorem prod1 : val_main_v30 (F := Ideal) x0 x2 = matProd (n := 50000) (K := 128) (d := 128) x0 x2 := by
  funext i
  rw [val_main_v30_apply]
  unfold matProd
  refine Finset.sum_congr rfl fun k _ => ?_
  have hl : lidx_main_v30 i k = ix2 (rowOf i) k :=
    funext fun a => Fin.ext (by match a with | ⟨0, _⟩ => rfl | ⟨1, _⟩ => rfl)
  have hr : ridx_main_v30 i k = ix2 k (colOf i) :=
    funext fun a => Fin.ext (by match a with | ⟨0, _⟩ => rfl | ⟨1, _⟩ => rfl)
  rw [hl, hr]

/-! ## Layer 1: bias, normalise each row, scale, shift, clamp -/

/-- The aggregated array plus the bias row, at `(r, k)`. -/
theorem biased1_at (r : Fin 50000) (k : Fin 128) :
    val_main_v46 (F := Ideal) x0 x1 x2 x3 (ix2 r k) = (biasedRow (val_main_v43 (F := Ideal) x0 x1 x2) (val_main_v44 (F := Ideal) x3) r) k := by
  have h : idx_main_v45 (ix2 r k) = ix2 0 k := funext fun a => Fin.ext (by match a with | ⟨0, _⟩ => rfl | ⟨1, _⟩ => rfl)
  rw [val_main_v46_apply, val_main_v45_apply, h]
  rfl

/-- The row sum: the reduce's initial value is the zero word, and the sum runs over the feature axis. -/
theorem sum1_at (r : Fin 50000) :
    val_main_v47 (F := Ideal) x0 x1 x2 x3 (ix1 r) = ∑ k : Fin 128, (biasedRow (val_main_v43 (F := Ideal) x0 x1 x2) (val_main_v44 (F := Ideal) x3) r) k := by
  rw [val_main_v47_apply, val_main_cst_9_apply, Ideal.ofBits_def, Ideal.ofBits_zero_f32, zero_add]
  refine Finset.sum_congr rfl fun k _ => ?_
  have h : idx_main_v47 (ix1 r) k = ix2 r k := funext fun a => Fin.ext (by match a with | ⟨0, _⟩ => rfl | ⟨1, _⟩ => rfl)
  rw [h, biased1_at]

/-- The row's mean, kept in its one-column array. -/
theorem mean1_at (r : Fin 50000) :
    val_main_v50 (F := Ideal) x0 x1 x2 x3 (ix2 r 0) = rowMean c128 (biasedRow (val_main_v43 (F := Ideal) x0 x1 x2) (val_main_v44 (F := Ideal) x3) r) := by
  have h : idx_main_v48 (ix2 r (0 : Fin 1)) = ix1 r := funext fun a => Fin.ext (by match a with | ⟨0, _⟩ => rfl)
  rw [val_main_v50_apply, val_main_v48_apply, h, sum1_at, val_main_v49_apply, val_main_cst_10_apply]
  rfl

/-- The deviation from the mean (the subtraction that feeds the variance). -/
theorem dev1a_at (r : Fin 50000) (k : Fin 128) :
    val_main_v52 (F := Ideal) x0 x1 x2 x3 (ix2 r k) = (biasedRow (val_main_v43 (F := Ideal) x0 x1 x2) (val_main_v44 (F := Ideal) x3) r) k - rowMean c128 (biasedRow (val_main_v43 (F := Ideal) x0 x1 x2) (val_main_v44 (F := Ideal) x3) r) := by
  have h : idx_main_v51 (ix2 r k) = ix2 r 0 := funext fun a => Fin.ext (by match a with | ⟨0, _⟩ => rfl | ⟨1, _⟩ => rfl)
  rw [val_main_v52_apply, val_main_v51_apply, h, mean1_at, biased1_at]
  rfl

/-- The deviation from the mean (the subtraction that feeds the normalised row). -/
theorem dev1b_at (r : Fin 50000) (k : Fin 128) :
    val_main_v59 (F := Ideal) x0 x1 x2 x3 (ix2 r k) = (biasedRow (val_main_v43 (F := Ideal) x0 x1 x2) (val_main_v44 (F := Ideal) x3) r) k - rowMean c128 (biasedRow (val_main_v43 (F := Ideal) x0 x1 x2) (val_main_v44 (F := Ideal) x3) r) := by
  have h : idx_main_v58 (ix2 r k) = ix2 r 0 := funext fun a => Fin.ext (by match a with | ⟨0, _⟩ => rfl | ⟨1, _⟩ => rfl)
  rw [val_main_v59_apply, val_main_v58_apply, h, mean1_at, biased1_at]
  rfl

/-- The sum of the squared deviations. -/
theorem sqsum1_at (r : Fin 50000) :
    val_main_v54 (F := Ideal) x0 x1 x2 x3 (ix1 r)
      = ∑ k : Fin 128, ((biasedRow (val_main_v43 (F := Ideal) x0 x1 x2) (val_main_v44 (F := Ideal) x3) r) k - rowMean c128 (biasedRow (val_main_v43 (F := Ideal) x0 x1 x2) (val_main_v44 (F := Ideal) x3) r)) * ((biasedRow (val_main_v43 (F := Ideal) x0 x1 x2) (val_main_v44 (F := Ideal) x3) r) k - rowMean c128 (biasedRow (val_main_v43 (F := Ideal) x0 x1 x2) (val_main_v44 (F := Ideal) x3) r)) := by
  rw [val_main_v54_apply, val_main_cst_11_apply, Ideal.ofBits_def, Ideal.ofBits_zero_f32, zero_add]
  refine Finset.sum_congr rfl fun k _ => ?_
  have h : idx_main_v54 (ix1 r) k = ix2 r k := funext fun a => Fin.ext (by match a with | ⟨0, _⟩ => rfl | ⟨1, _⟩ => rfl)
  rw [h, val_main_v53_apply, dev1a_at]
  rfl

/-- The row's mean square deviation. -/
theorem var1_at (r : Fin 50000) :
    val_main_v57 (F := Ideal) x0 x1 x2 x3 (ix2 r 0) = rowVar c128 (biasedRow (val_main_v43 (F := Ideal) x0 x1 x2) (val_main_v44 (F := Ideal) x3) r) := by
  have h : idx_main_v55 (ix2 r (0 : Fin 1)) = ix1 r := funext fun a => Fin.ext (by match a with | ⟨0, _⟩ => rfl)
  rw [val_main_v57_apply, val_main_v55_apply, h, sqsum1_at, val_main_v56_apply, val_main_cst_12_apply]
  rfl

/-- The reciprocal square root of the variance plus `ε`. -/
theorem rstd1_at (r : Fin 50000) :
    val_main_v62 (F := Ideal) x0 x1 x2 x3 (ix2 r 0) = Ideal.rsqrt (rowVar c128 (biasedRow (val_main_v43 (F := Ideal) x0 x1 x2) (val_main_v44 (F := Ideal) x3) r) + cEps) := by
  rw [val_main_v62_apply, val_main_v61_apply, var1_at, val_main_v60_apply, val_main_cst_13_apply]
  rfl

/-- The clamped, normalised, scaled and shifted row, at `(r, q)`. -/
theorem relu1_at (r : Fin 50000) (q : Fin 128) :
    val_main_v71 (F := Ideal) x0 x1 x2 x3 x4 x5 (ix2 r q)
      = rowNormRelu c128 cEps cZero (biasedRow (val_main_v43 (F := Ideal) x0 x1 x2) (val_main_v44 (F := Ideal) x3) r) (theRow (val_main_v65 (F := Ideal) x4)) (theRow (val_main_v68 (F := Ideal) x5)) q := by
  have h1 : idx_main_v63 (ix2 r q) = ix2 r 0 := funext fun a => Fin.ext (by match a with | ⟨0, _⟩ => rfl | ⟨1, _⟩ => rfl)
  have h2 : idx_main_v66 (ix2 r q) = ix2 0 q := funext fun a => Fin.ext (by match a with | ⟨0, _⟩ => rfl | ⟨1, _⟩ => rfl)
  have h3 : idx_main_v69 (ix2 r q) = ix2 0 q := funext fun a => Fin.ext (by match a with | ⟨0, _⟩ => rfl | ⟨1, _⟩ => rfl)
  rw [val_main_v71_apply, val_main_v70_apply, val_main_v67_apply, val_main_v64_apply, dev1b_at,
    val_main_v63_apply, h1, rstd1_at, val_main_v66_apply, h2, val_main_v69_apply, h3,
    val_main_call1_v0_apply, val_main_call1_cst_apply]
  rfl

/-- The first layer's normalisation is `normRelu` of the aggregated array and the three one-row arrays. -/
theorem norm1 : val_main_v71 (F := Ideal) x0 x1 x2 x3 x4 x5
    = normRelu (n := 50000) (D := 128) c128 cEps cZero (val_main_v43 (F := Ideal) x0 x1 x2) (val_main_v44 (F := Ideal) x3)
        (val_main_v65 (F := Ideal) x4) (val_main_v68 (F := Ideal) x5) := by
  funext i
  obtain ⟨r, q, rfl⟩ : ∃ (r : Fin 50000) (q : Fin 128), i = ix2 r q := ⟨i 0, i 1, eq_ix2 i⟩
  rw [relu1_at]
  rfl

/-! ## The second dense product -/

/-- Entry `(r, q)` of the second product is `∑ₖ h (r, k) · W₂ (k, q)`, `h` the first layer's result. -/
theorem prod2 : val_main_v72 (F := Ideal) x0 x1 x2 x3 x4 x5 x6
    = matProd (n := 50000) (K := 128) (d := 64) (val_main_v71 (F := Ideal) x0 x1 x2 x3 x4 x5) x6 := by
  funext i
  rw [val_main_v72_apply]
  unfold matProd
  refine Finset.sum_congr rfl fun k _ => ?_
  have hl : lidx_main_v72 i k = ix2 (rowOf i) k :=
    funext fun a => Fin.ext (by match a with | ⟨0, _⟩ => rfl | ⟨1, _⟩ => rfl)
  have hr : ridx_main_v72 i k = ix2 k (colOf i) :=
    funext fun a => Fin.ext (by match a with | ⟨0, _⟩ => rfl | ⟨1, _⟩ => rfl)
  rw [hl, hr]

/-! ## Layer 2: bias, normalise each row, scale, shift, clamp -/

/-- The aggregated array plus the bias row, at `(r, k)`. -/
theorem biased2_at (r : Fin 50000) (k : Fin 64) :
    val_main_v88 (F := Ideal) x0 x1 x2 x3 x4 x5 x6 x7 (ix2 r k) = (biasedRow (val_main_v85 (F := Ideal) x0 x1 x2 x3 x4 x5 x6) (val_main_v86 (F := Ideal) x7) r) k := by
  have h : idx_main_v87 (ix2 r k) = ix2 0 k := funext fun a => Fin.ext (by match a with | ⟨0, _⟩ => rfl | ⟨1, _⟩ => rfl)
  rw [val_main_v88_apply, val_main_v87_apply, h]
  rfl

/-- The row sum: the reduce's initial value is the zero word, and the sum runs over the feature axis. -/
theorem sum2_at (r : Fin 50000) :
    val_main_v89 (F := Ideal) x0 x1 x2 x3 x4 x5 x6 x7 (ix1 r) = ∑ k : Fin 64, (biasedRow (val_main_v85 (F := Ideal) x0 x1 x2 x3 x4 x5 x6) (val_main_v86 (F := Ideal) x7) r) k := by
  rw [val_main_v89_apply, val_main_cst_17_apply, Ideal.ofBits_def, Ideal.ofBits_zero_f32, zero_add]
  refine Finset.sum_congr rfl fun k _ => ?_
  have h : idx_main_v89 (ix1 r) k = ix2 r k := funext fun a => Fin.ext (by match a with | ⟨0, _⟩ => rfl | ⟨1, _⟩ => rfl)
  rw [h, biased2_at]

/-- The row's mean, kept in its one-column array. -/
theorem mean2_at (r : Fin 50000) :
    val_main_v92 (F := Ideal) x0 x1 x2 x3 x4 x5 x6 x7 (ix2 r 0) = rowMean c64 (biasedRow (val_main_v85 (F := Ideal) x0 x1 x2 x3 x4 x5 x6) (val_main_v86 (F := Ideal) x7) r) := by
  have h : idx_main_v90 (ix2 r (0 : Fin 1)) = ix1 r := funext fun a => Fin.ext (by match a with | ⟨0, _⟩ => rfl)
  rw [val_main_v92_apply, val_main_v90_apply, h, sum2_at, val_main_v91_apply, val_main_cst_18_apply]
  rfl

/-- The deviation from the mean (the subtraction that feeds the variance). -/
theorem dev2a_at (r : Fin 50000) (k : Fin 64) :
    val_main_v94 (F := Ideal) x0 x1 x2 x3 x4 x5 x6 x7 (ix2 r k) = (biasedRow (val_main_v85 (F := Ideal) x0 x1 x2 x3 x4 x5 x6) (val_main_v86 (F := Ideal) x7) r) k - rowMean c64 (biasedRow (val_main_v85 (F := Ideal) x0 x1 x2 x3 x4 x5 x6) (val_main_v86 (F := Ideal) x7) r) := by
  have h : idx_main_v93 (ix2 r k) = ix2 r 0 := funext fun a => Fin.ext (by match a with | ⟨0, _⟩ => rfl | ⟨1, _⟩ => rfl)
  rw [val_main_v94_apply, val_main_v93_apply, h, mean2_at, biased2_at]
  rfl

/-- The deviation from the mean (the subtraction that feeds the normalised row). -/
theorem dev2b_at (r : Fin 50000) (k : Fin 64) :
    val_main_v101 (F := Ideal) x0 x1 x2 x3 x4 x5 x6 x7 (ix2 r k) = (biasedRow (val_main_v85 (F := Ideal) x0 x1 x2 x3 x4 x5 x6) (val_main_v86 (F := Ideal) x7) r) k - rowMean c64 (biasedRow (val_main_v85 (F := Ideal) x0 x1 x2 x3 x4 x5 x6) (val_main_v86 (F := Ideal) x7) r) := by
  have h : idx_main_v100 (ix2 r k) = ix2 r 0 := funext fun a => Fin.ext (by match a with | ⟨0, _⟩ => rfl | ⟨1, _⟩ => rfl)
  rw [val_main_v101_apply, val_main_v100_apply, h, mean2_at, biased2_at]
  rfl

/-- The sum of the squared deviations. -/
theorem sqsum2_at (r : Fin 50000) :
    val_main_v96 (F := Ideal) x0 x1 x2 x3 x4 x5 x6 x7 (ix1 r)
      = ∑ k : Fin 64, ((biasedRow (val_main_v85 (F := Ideal) x0 x1 x2 x3 x4 x5 x6) (val_main_v86 (F := Ideal) x7) r) k - rowMean c64 (biasedRow (val_main_v85 (F := Ideal) x0 x1 x2 x3 x4 x5 x6) (val_main_v86 (F := Ideal) x7) r)) * ((biasedRow (val_main_v85 (F := Ideal) x0 x1 x2 x3 x4 x5 x6) (val_main_v86 (F := Ideal) x7) r) k - rowMean c64 (biasedRow (val_main_v85 (F := Ideal) x0 x1 x2 x3 x4 x5 x6) (val_main_v86 (F := Ideal) x7) r)) := by
  rw [val_main_v96_apply, val_main_cst_19_apply, Ideal.ofBits_def, Ideal.ofBits_zero_f32, zero_add]
  refine Finset.sum_congr rfl fun k _ => ?_
  have h : idx_main_v96 (ix1 r) k = ix2 r k := funext fun a => Fin.ext (by match a with | ⟨0, _⟩ => rfl | ⟨1, _⟩ => rfl)
  rw [h, val_main_v95_apply, dev2a_at]
  rfl

/-- The row's mean square deviation. -/
theorem var2_at (r : Fin 50000) :
    val_main_v99 (F := Ideal) x0 x1 x2 x3 x4 x5 x6 x7 (ix2 r 0) = rowVar c64 (biasedRow (val_main_v85 (F := Ideal) x0 x1 x2 x3 x4 x5 x6) (val_main_v86 (F := Ideal) x7) r) := by
  have h : idx_main_v97 (ix2 r (0 : Fin 1)) = ix1 r := funext fun a => Fin.ext (by match a with | ⟨0, _⟩ => rfl)
  rw [val_main_v99_apply, val_main_v97_apply, h, sqsum2_at, val_main_v98_apply, val_main_cst_20_apply]
  rfl

/-- The reciprocal square root of the variance plus `ε`. -/
theorem rstd2_at (r : Fin 50000) :
    val_main_v104 (F := Ideal) x0 x1 x2 x3 x4 x5 x6 x7 (ix2 r 0) = Ideal.rsqrt (rowVar c64 (biasedRow (val_main_v85 (F := Ideal) x0 x1 x2 x3 x4 x5 x6) (val_main_v86 (F := Ideal) x7) r) + cEps) := by
  rw [val_main_v104_apply, val_main_v103_apply, var2_at, val_main_v102_apply, val_main_cst_21_apply]
  rfl

/-- The clamped, normalised, scaled and shifted row, at `(r, q)`. -/
theorem relu2_at (r : Fin 50000) (q : Fin 64) :
    val_main_v113 (F := Ideal) x0 x1 x2 x3 x4 x5 x6 x7 x8 x9 (ix2 r q)
      = rowNormRelu c64 cEps cZero (biasedRow (val_main_v85 (F := Ideal) x0 x1 x2 x3 x4 x5 x6) (val_main_v86 (F := Ideal) x7) r) (theRow (val_main_v107 (F := Ideal) x8)) (theRow (val_main_v110 (F := Ideal) x9)) q := by
  have h1 : idx_main_v105 (ix2 r q) = ix2 r 0 := funext fun a => Fin.ext (by match a with | ⟨0, _⟩ => rfl | ⟨1, _⟩ => rfl)
  have h2 : idx_main_v108 (ix2 r q) = ix2 0 q := funext fun a => Fin.ext (by match a with | ⟨0, _⟩ => rfl | ⟨1, _⟩ => rfl)
  have h3 : idx_main_v111 (ix2 r q) = ix2 0 q := funext fun a => Fin.ext (by match a with | ⟨0, _⟩ => rfl | ⟨1, _⟩ => rfl)
  rw [val_main_v113_apply, val_main_v112_apply, val_main_v109_apply, val_main_v106_apply, dev2b_at,
    val_main_v105_apply, h1, rstd2_at, val_main_v108_apply, h2, val_main_v111_apply, h3,
    val_main_call2_v0_apply, val_main_call2_cst_apply]
  rfl

/-! ## The last layer's tail: each row divided by its clamped Euclidean length -/

/-- The sum of the squares of the clamped row. -/
theorem sqlen_at (r : Fin 50000) :
    val_main_v115 (F := Ideal) x0 x1 x2 x3 x4 x5 x6 x7 x8 x9 (ix1 r)
      = ∑ k : Fin 64, (fun k => rowNormRelu c64 cEps cZero (biasedRow (val_main_v85 (F := Ideal) x0 x1 x2 x3 x4 x5 x6) (val_main_v86 (F := Ideal) x7) r) (theRow (val_main_v107 (F := Ideal) x8)) (theRow (val_main_v110 (F := Ideal) x9)) k) k * (fun k => rowNormRelu c64 cEps cZero (biasedRow (val_main_v85 (F := Ideal) x0 x1 x2 x3 x4 x5 x6) (val_main_v86 (F := Ideal) x7) r) (theRow (val_main_v107 (F := Ideal) x8)) (theRow (val_main_v110 (F := Ideal) x9)) k) k := by
  rw [val_main_v115_apply, val_main_cst_22_apply, Ideal.ofBits_def, Ideal.ofBits_zero_f32, zero_add]
  refine Finset.sum_congr rfl fun k _ => ?_
  have h : idx_main_v115 (ix1 r) k = ix2 r k := funext fun a => Fin.ext (by match a with | ⟨0, _⟩ => rfl | ⟨1, _⟩ => rfl)
  rw [h, val_main_v114_apply, relu2_at]
  rfl

/-- The row's Euclidean length, clamped below at the tiny literal. -/
theorem len_at (r : Fin 50000) :
    val_main_v119 (F := Ideal) x0 x1 x2 x3 x4 x5 x6 x7 x8 x9 (ix2 r 0)
      = max (Ideal.sqrt (∑ k : Fin 64, (fun k => rowNormRelu c64 cEps cZero (biasedRow (val_main_v85 (F := Ideal) x0 x1 x2 x3 x4 x5 x6) (val_main_v86 (F := Ideal) x7) r) (theRow (val_main_v107 (F := Ideal) x8)) (theRow (val_main_v110 (F := Ideal) x9)) k) k * (fun k => rowNormRelu c64 cEps cZero (biasedRow (val_main_v85 (F := Ideal) x0 x1 x2 x3 x4 x5 x6) (val_main_v86 (F := Ideal) x7) r) (theRow (val_main_v107 (F := Ideal) x8)) (theRow (val_main_v110 (F := Ideal) x9)) k) k)) cTiny := by
  have h : idx_main_v116 (ix2 r (0 : Fin 1)) = ix1 r := funext fun a => Fin.ext (by match a with | ⟨0, _⟩ => rfl)
  rw [val_main_v119_apply, val_main_v117_apply, val_main_v116_apply, h, sqlen_at, val_main_v118_apply, val_main_cst_23_apply]
  simp only [Ideal.maximumf_def, Ideal.hostUnary_sqrt_def, Ideal.ofBits_def]

/-- The result at `(r, q)`: the clamped row's entry divided by the clamped length. -/
theorem unit_at (r : Fin 50000) (q : Fin 64) :
    val_main_v121 (F := Ideal) x0 x1 x2 x3 x4 x5 x6 x7 x8 x9 (ix2 r q) = rowUnit cTiny (fun k => rowNormRelu c64 cEps cZero (biasedRow (val_main_v85 (F := Ideal) x0 x1 x2 x3 x4 x5 x6) (val_main_v86 (F := Ideal) x7) r) (theRow (val_main_v107 (F := Ideal) x8)) (theRow (val_main_v110 (F := Ideal) x9)) k) q := by
  have h : idx_main_v120 (ix2 r q) = ix2 r 0 := funext fun a => Fin.ext (by match a with | ⟨0, _⟩ => rfl | ⟨1, _⟩ => rfl)
  rw [val_main_v121_apply, val_main_v120_apply, h, len_at, relu2_at]
  rfl

/-- The last layer is `normReluUnit` of the aggregated array and the three one-row arrays. -/
theorem norm2 : val_main_v121 (F := Ideal) x0 x1 x2 x3 x4 x5 x6 x7 x8 x9
    = normReluUnit (n := 50000) (D := 64) c64 cEps cZero cTiny (val_main_v85 (F := Ideal) x0 x1 x2 x3 x4 x5 x6)
        (val_main_v86 (F := Ideal) x7) (val_main_v107 (F := Ideal) x8) (val_main_v110 (F := Ideal) x9) := by
  funext i
  obtain ⟨r, q, rfl⟩ : ∃ (r : Fin 50000) (q : Fin 64), i = ix2 r q := ⟨i 0, i 1, eq_ix2 i⟩
  rw [unit_at]
  rfl

end Cert.ReferenceIdeal.Stages

end
-- ==== Proof.MatmulBlock.lean ====
/-
  The tiled product's body at one entry. The kernel loads a 2000-row block of `x` and all of `W`, narrows
  both to bf16 (no change on the extended reals), and multiplies into a zero accumulator: entry `(p, q)` of the
  result block is `∑ₖ x (p, k) · W (k, q)` — row `p` of the block against column `q` of `W`.
-/
import proofs.«133334_j49546742726739_1_alg».proof.Proof.Gen.KernelIdeal.Skeleton
import proofs.«133334_j49546742726739_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.MatmulBlock

open Cert.KernelIdeal Cert.KernelIdeal.Gen Idealize.ShloMosaic Idealize.ShloMosaic.ValueIdx

/-! ## The first product: a [2000, 128] block against [128, 128] -/

theorem lhsA_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhsA_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhsA_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of the first product's block: row `p` of the loaded block against column `q` of the weights. -/
theorem prodA_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  show x0 _ * x1 _ = _
  rw [el, er]

/-! ## The second product: a [2000, 128] block against [128, 64] -/

theorem lhsB_0 (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhsB_1 (i : S2000x64.Idx) (c : dot_S2000x128_S128x64_S2000x64_1_0_0_1_n_n.contr.Idx) :
    (dot_S2000x128_S128x64_S2000x64_1_0_0_1_n_n.lhsIdx i c 1).val = (c ⟨0, by decide⟩).val :=
  dot_S2000x128_S128x64_S2000x64_1_0_0_1_n_n.lhsIdx_val_of_single rfl i c
theorem rhsB_0 (i : S2000x64.Idx) (c : dot_S2000x128_S128x64_S2000x64_1_0_0_1_n_n.contr.Idx) :
    (dot_S2000x128_S128x64_S2000x64_1_0_0_1_n_n.rhsIdx i c 0).val = (c ⟨0, by decide⟩).val :=
  dot_S2000x128_S128x64_S2000x64_1_0_0_1_n_n.rhsIdx_val_of_single rfl i c
theorem rhsB_1 (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry `(p, q)` of the second product's block: row `p` of the loaded block (re-cast to its own shape, no change)
    against column `q` of the weights. -/
theorem prodB_apply (x0 : Vec Ideal S2000x128 .f32) (x1 : Vec Ideal S128x64 .f32) (p : Fin 2000) (q : Fin 64) :
    k2_pay1 (F := Ideal) x0 x1 (ix2 p q) = ∑ k : Fin 128, x0 (ix2 p k) * x1 (ix2 k q) := by
  unfold k2_pay1
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhsB_0 _ _).trans hk
    | ⟨1, _⟩ => exact rhsB_1 _ _)
  show (shapeCast S2000x128 x0 shapeCasts_S2000x128_S2000x128) _ * x1 _ = _
  rw [shapeCast_self, el, er]

end Cert.KernelIdeal.MatmulBlock

end
-- ==== Proof.ProductTiles1.lean ====
/-
  The first dense product, from row blocks to the whole array.

  The grid has 25 points; point `t` reads rows `2000·t … 2000·t + 1999` of the left operand and all of the right
  one, and writes the same rows of the result. Entry `(p, q)` of the block is row `p` of the loaded block against
  column `q` of the weights, and row `p` of block `t` IS row `2000·t + p` of the array: so what point `t` writes back
  is block `t` of the whole-array product. Row `r` lies in block `r / 2000`, so the blocks cover the array, and the
  array after the region is the product of the arrays the region found.
-/
import proofs.«133334_j49546742726739_1_alg».proof.Proof.Gen.KernelIdeal.Frame
import proofs.«133334_j49546742726739_1_alg».proof.Proof.MatmulBlock
import proofs.«133334_j49546742726739_1_alg».proof.Proof.Spec
import Idealize.ShloMosaic.Lib.Pipeline.Value

set_option maxRecDepth 16384

noncomputable section

open scoped BigOperators

namespace Cert.KernelIdeal.ProductTiles1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's and the result's blocks are block row `t`, column block 0;
    the weights are always their one block. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array product of the arrays the region found. -/
theorem flushed_eq (c : Dev nD) (t : Fin cfg0.N) :
    (dat0 V c).flushed 2 t = ((cfg0.win 2).blk t).view.read (Elt Ideal)
      (Cert.Spec.matProd (n := 50000) (K := 128) (d := 128) (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := blockIndex t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = Cert.Spec.matProd (n := 50000) (K := 128) (d := 128) (V c main_arg0) (V c main_arg2) (((cfg0.win 2).blk t).view.emb (ix2 p q))
  refine (MatmulBlock.prodA_apply _ _ p q).trans ?_
  unfold Cert.Spec.matProd
  refine Finset.sum_congr rfl fun k _ => ?_
  have hl : iblk0 V c 0 t (ix2 p k)
      = V c main_arg0 (ix2 (Cert.Spec.rowOf (((cfg0.win 2).blk t).view.emb (ix2 p q))) k) := by
    show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hr : iblk0 V c 1 t (ix2 k q)
      = V c main_arg2 (ix2 k (Cert.Spec.colOf (((cfg0.win 2).blk t).view.emb (ix2 p q)))) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hl, hr]

/-- An index is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Row `r` lies in the block of point `r / 2000`: the 25 blocks cover the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  obtain ⟨-, -, -, -, e4, e5⟩ := blockIndex t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region: the product of the two arrays the region found. -/
theorem final (c : Dev nD) : (dat0 V c).arrAt 2 cfg0.N
    = Cert.Spec.matProd (n := 50000) (K := 128) (d := 128) (V c main_arg0) (V c main_arg2) :=
  (dat0 V c).arrAt_eq_of_cover 2 _ (fun t _ => flushed_eq V c t) cover

end Cert.KernelIdeal.ProductTiles1

end
-- ==== Proof.ProductTiles2.lean ====
/-
  The second dense product, from row blocks to the whole array.

  The grid has 25 points; point `t` reads rows `2000·t … 2000·t + 1999` of the left operand and all of the right
  one, and writes the same rows of the result. Entry `(p, q)` of the block is row `p` of the loaded block against
  column `q` of the weights, and row `p` of block `t` IS row `2000·t + p` of the array: so what point `t` writes back
  is block `t` of the whole-array product. Row `r` lies in block `r / 2000`, so the blocks cover the array, and the
  array after the region is the product of the arrays the region found.
-/
import proofs.«133334_j49546742726739_1_alg».proof.Proof.Gen.KernelIdeal.Frame
import proofs.«133334_j49546742726739_1_alg».proof.Proof.MatmulBlock
import proofs.«133334_j49546742726739_1_alg».proof.Proof.Spec
import Idealize.ShloMosaic.Lib.Pipeline.Value

set_option maxRecDepth 16384

noncomputable section

open scoped BigOperators

namespace Cert.KernelIdeal.ProductTiles2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's and the result's blocks are block row `t`, column block 0;
    the weights are always their one block. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole-array product of the arrays the region found. -/
theorem flushed_eq (c : Dev nD) (t : Fin cfg2.N) :
    (dat2 V c).flushed 2 t = ((cfg2.win 2).blk t).view.read (Elt Ideal)
      (Cert.Spec.matProd (n := 50000) (K := 128) (d := 64) (V c main_v47) (V c main_arg6)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x64) origin]
  obtain ⟨e0, e1, e2, e3, e4, e5⟩ := blockIndex t
  funext j
  obtain ⟨p, q, rfl⟩ : ∃ (p : Fin 2000) (q : Fin 64), j = ix2 p q := ⟨j 0, j 1, eq_ix2 j⟩
  show k2_pay1 (iblk2 V c 0 t) (iblk2 V c 1 t) (ix2 p q)
    = Cert.Spec.matProd (n := 50000) (K := 128) (d := 64) (V c main_v47) (V c main_arg6) (((cfg2.win 2).blk t).view.emb (ix2 p q))
  refine (MatmulBlock.prodB_apply _ _ p q).trans ?_
  unfold Cert.Spec.matProd
  refine Finset.sum_congr rfl fun k _ => ?_
  have hl : iblk2 V c 0 t (ix2 p k)
      = V c main_v47 (ix2 (Cert.Spec.rowOf (((cfg2.win 2).blk t).view.emb (ix2 p q))) k) := by
    show V c main_v47 (((cfg2.win 0).blk t).view.emb (ix2 p k)) = _
    refine congrArg (V c main_v47) ?_
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have hr : iblk2 V c 1 t (ix2 k q)
      = V c main_arg6 (ix2 k (Cert.Spec.colOf (((cfg2.win 2).blk t).view.emb (ix2 p q)))) := by
    show V c main_arg6 (((cfg2.win 1).blk t).view.emb (ix2 k q)) = _
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hl, hr]

/-- An index is in point `t`'s block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- Row `r` lies in the block of point `r / 2000`: the 25 blocks cover the array. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 2000 :=
    ⟨⟨(i 0).val / 2000, by show _ < grid2.N; rw [N_2]; omega⟩, rfl⟩
  obtain ⟨-, -, -, -, e4, e5⟩ := blockIndex t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The result array after the region: the product of the two arrays the region found. -/
theorem final (c : Dev nD) : (dat2 V c).arrAt 2 cfg2.N
    = Cert.Spec.matProd (n := 50000) (K := 128) (d := 64) (V c main_v47) (V c main_arg6) :=
  (dat2 V c).arrAt_eq_of_cover 2 _ (fun t _ => flushed_eq V c t) cover

end Cert.KernelIdeal.ProductTiles2

end
-- ==== Proof.NormBlock.lean ====
/-
  The two normalisation bodies at one entry. Each loads a 2000-row block `a`, a bias row `b`, a scale row `g` and a
  shift row `β`, and works ROW BY ROW: with `y = a + b` the biased row, the row's mean is `μ = (∑ₖ yₖ) / D`, its
  variance `v = (∑ₖ (yₖ - μ)²) / D`, and entry `q` of the result is `max ((y_q - μ) · (v + ε)^(-1/2) · g_q + β_q) 0`.
  The second body then divides each row `h` of that result by `max (√(∑ₖ hₖ²)) tiny`.

  Entry `(p, q)` of the result depends on row `p` of the block and on the three parameter rows, and on nothing else:
  the two sums run over the `D` lanes of row `p`, kept as a one-column array and spread back over the lanes.
-/
import proofs.«133334_j49546742726739_1_alg».proof.Proof.Gen.KernelIdeal.Skeleton
import proofs.«133334_j49546742726739_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.NormBlock

open Cert.KernelIdeal Cert.KernelIdeal.Gen Idealize.ShloMosaic Idealize.ShloMosaic.ValueIdx

/-! ## Layout operations of a kept-dimension row sum, read at an index given by coordinates -/

section Layout
variable {α : Type}

/-- An `[a]` array cast to the one-column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column `[a, 1]` array broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum of an `[a, b]` array over its lanes (axis 1), read at row `p`: `∑ₖ v (p, k)`, the lanes in their one fixed
    order. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun c => Fin.ext ?_)
  match c with
  | ⟨0, _⟩ => rfl
  | ⟨1, _⟩ => rfl

/-- The same sum kept as a one-column array, read at `(p, 0)`. -/
theorem keptRowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ v 0x00000000#32 h hφ hacc) hc (ix2 p u)
      = ∑ k : Fin b, v (ix2 p k) :=
  (shapeCast_a_a1_apply _ hc p u).trans (rowSum_apply v h hφ hacc p)

/-! ## One normalisation body, over a block of any size

The body is written once for an `[a, b]` block and its `[1, b]` parameter rows, as the composition of its few
stages; each stage is then read at an entry. Both bodies of the program are this one at their own sizes. -/

section Body
variable {a b : ℕ}
  (h1 : (⟨2, ![a, b]⟩ : Shape).ShapeCasts ⟨2, ![a, b]⟩)
  (h2 : (⟨2, ![1, b]⟩ : Shape).ShapeCasts ⟨2, ![1, b]⟩)
  (h3 : (⟨2, ![1, b]⟩ : Shape).Broadcasts ⟨2, ![a, b]⟩)
  (hR : (⟨2, ![a, b]⟩ : Shape).Reduces [1] ⟨1, ![a]⟩)
  (hφ : FKind.Formats .f32) (hacc : (0x00000000#32 : BitVec 32) = FKind.add.neutral .f32 hφ)
  (hC : (⟨1, ![a]⟩ : Shape).ShapeCasts ⟨2, ![a, 1]⟩)
  (hB : (⟨2, ![a, 1]⟩ : Shape).Broadcasts ⟨2, ![a, b]⟩)
  (n eps z tiny : Ideal .f32)

/-- A parameter row spread over the `a` rows of a block. -/
def spreadRow (x : FVec Ideal ⟨2, ![1, b]⟩ .f32) : FVec Ideal ⟨2, ![a, b]⟩ .f32 :=
  broadcastTo ⟨2, ![a, b]⟩ (shapeCast ⟨2, ![1, b]⟩ x h2) h3

/-- Entry `(p, k)` of a spread row is the row's entry `k`. -/
theorem spreadRow_apply (x : FVec Ideal ⟨2, ![1, b]⟩ .f32) (p : Fin a) (k : Fin b) :
    spreadRow h2 h3 x (ix2 p k) = x (ix2 0 k) :=
  (broadcastTo_1b_ab_apply _ h3 p k).trans (congrFun (shapeCast_self x h2) _)

/-- The biased block `y = x + bias`. -/
def biased (x0 : FVec Ideal ⟨2, ![a, b]⟩ .f32) (x1 : FVec Ideal ⟨2, ![1, b]⟩ .f32) : FVec Ideal ⟨2, ![a, b]⟩ .f32 :=
  addf (F := Ideal) (φ := .f32) (shapeCast ⟨2, ![a, b]⟩ x0 h1) (spreadRow h2 h3 x1)

/-- Entry `(p, k)` of the biased block. -/
theorem biased_apply (x0 : FVec Ideal ⟨2, ![a, b]⟩ .f32) (x1 : FVec Ideal ⟨2, ![1, b]⟩ .f32) (p : Fin a) (k : Fin b) :
    biased h1 h2 h3 x0 x1 (ix2 p k) = x0 (ix2 p k) + x1 (ix2 0 k) := by
  show shapeCast ⟨2, ![a, b]⟩ x0 h1 (ix2 p k) + spreadRow h2 h3 x1 (ix2 p k) = _
  rw [shapeCast_self, spreadRow_apply]

/-- The lane sum of each row divided by the count `n`, kept as a one-column array. -/
def keptMean (y : FVec Ideal ⟨2, ![a, b]⟩ .f32) : FVec Ideal ⟨2, ![a, 1]⟩ .f32 :=
  divf (F := Ideal) (φ := .f32)
    (shapeCast ⟨2, ![a, 1]⟩ (multiReduction (F := Ideal) .add [1] ⟨1, ![a]⟩ y 0x00000000#32 hR hφ hacc) hC)
    (broadcast ⟨2, ![a, 1]⟩ n)

/-- Its entry of row `p` is the mean of row `p`. -/
theorem keptMean_apply (y : FVec Ideal ⟨2, ![a, b]⟩ .f32) (p : Fin a) (u : Fin 1) :
    keptMean hR hφ hacc hC n y (ix2 p u) = Cert.Spec.rowMean n (fun k : Fin b => y (ix2 p k)) :=
  congrArg (fun s => Ideal.div s n) (keptRowSum_apply y hR hφ hacc hC p u)

/-- The block with each row's mean taken off. -/
def centred (y : FVec Ideal ⟨2, ![a, b]⟩ .f32) : FVec Ideal ⟨2, ![a, b]⟩ .f32 :=
  subf (F := Ideal) (φ := .f32) y (broadcastTo ⟨2, ![a, b]⟩ (keptMean hR hφ hacc hC n y) hB)

/-- Entry `(p, k)` of the centred block: the entry less the mean of its row. -/
theorem centred_apply (y : FVec Ideal ⟨2, ![a, b]⟩ .f32) (p : Fin a) (k : Fin b) :
    centred hR hφ hacc hC hB n y (ix2 p k) = y (ix2 p k) - Cert.Spec.rowMean n (fun k : Fin b => y (ix2 p k)) :=
  congrArg (fun m => y (ix2 p k) - m) ((broadcastTo_a1_ab_apply _ hB p k).trans (keptMean_apply hR hφ hacc hC n y p 0))

/-- `(v + ε)^(-1/2)` of each row's variance `v`, a one-column array. -/
def invDev (y : FVec Ideal ⟨2, ![a, b]⟩ .f32) : FVec Ideal ⟨2, ![a, 1]⟩ .f32 :=
  rsqrt (F := Ideal) (φ := .f32)
    (addf (F := Ideal) (φ := .f32)
      (keptMean hR hφ hacc hC n
        (mulf (F := Ideal) (φ := .f32) (centred hR hφ hacc hC hB n y) (centred hR hφ hacc hC hB n y)))
      (broadcast ⟨2, ![a, 1]⟩ eps))

/-- Its entry of row `p`, over the variance of row `p`: the mean of the squared deviations from the row's mean. -/
theorem invDev_apply (y : FVec Ideal ⟨2, ![a, b]⟩ .f32) (p : Fin a) (u : Fin 1) :
    invDev hR hφ hacc hC hB n eps y (ix2 p u)
      = Ideal.rsqrt (Cert.Spec.rowVar n (fun k : Fin b => y (ix2 p k)) + eps) := by
  show Ideal.rsqrt (keptMean hR hφ hacc hC n
      (mulf (F := Ideal) (φ := .f32) (centred hR hφ hacc hC hB n y) (centred hR hφ hacc hC hB n y)) (ix2 p u) + eps) = _
  rw [keptMean_apply]
  refine congrArg (fun s => Ideal.rsqrt (Ideal.div s n + eps)) (Finset.sum_congr rfl fun k _ => ?_)
  show centred hR hφ hacc hC hB n y (ix2 p k) * centred hR hφ hacc hC hB n y (ix2 p k) = _
  rw [centred_apply]

/-- The whole body: bias, centre, scale by `(v + ε)^(-1/2)`, by the scale row, add the shift row, clamp below at `z`. -/
def normBody (x0 : FVec Ideal ⟨2, ![a, b]⟩ .f32) (x1 x2 x3 : FVec Ideal ⟨2, ![1, b]⟩ .f32) : FVec Ideal ⟨2, ![a, b]⟩ .f32 :=
  maximumf (F := Ideal) (φ := .f32)
    (addf (F := Ideal) (φ := .f32)
      (mulf (F := Ideal) (φ := .f32)
        (mulf (F := Ideal) (φ := .f32) (centred hR hφ hacc hC hB n (biased h1 h2 h3 x0 x1))
          (broadcastTo ⟨2, ![a, b]⟩ (invDev hR hφ hacc hC hB n eps (biased h1 h2 h3 x0 x1)) hB))
        (spreadRow h2 h3 x2))
      (spreadRow h2 h3 x3))
    (broadcast ⟨2, ![a, b]⟩ z)

/-- Entry `(p, q)` of the body: the normalised, scaled, shifted, clamped entry `q` of the biased row `p`. -/
theorem normBody_apply (x0 : FVec Ideal ⟨2, ![a, b]⟩ .f32) (x1 x2 x3 : FVec Ideal ⟨2, ![1, b]⟩ .f32) (p : Fin a) (q : Fin b) :
    normBody h1 h2 h3 hR hφ hacc hC hB n eps z x0 x1 x2 x3 (ix2 p q)
      = Cert.Spec.rowNormRelu n eps z (fun k : Fin b => x0 (ix2 p k) + x1 (ix2 0 k)) (fun k : Fin b => x2 (ix2 0 k))
          (fun k : Fin b => x3 (ix2 0 k)) q := by
  have hy : (fun k : Fin b => biased h1 h2 h3 x0 x1 (ix2 p k)) = fun k : Fin b => x0 (ix2 p k) + x1 (ix2 0 k) :=
    funext fun k => biased_apply h1 h2 h3 x0 x1 p k
  show max (centred hR hφ hacc hC hB n (biased h1 h2 h3 x0 x1) (ix2 p q)
        * broadcastTo ⟨2, ![a, b]⟩ (invDev hR hφ hacc hC hB n eps (biased h1 h2 h3 x0 x1)) hB (ix2 p q)
        * spreadRow h2 h3 x2 (ix2 p q) + spreadRow h2 h3 x3 (ix2 p q)) z = _
  rw [centred_apply, broadcastTo_a1_ab_apply, invDev_apply, spreadRow_apply, spreadRow_apply, hy, biased_apply]
  rfl

/-- The Euclidean normalisation of each row `h`: divided by `max (√(∑ₖ hₖ²)) tiny`. -/
def unitBody (h : FVec Ideal ⟨2, ![a, b]⟩ .f32) : FVec Ideal ⟨2, ![a, b]⟩ .f32 :=
  divf (F := Ideal) (φ := .f32) h
    (broadcastTo ⟨2, ![a, b]⟩
      (maximumf (F := Ideal) (φ := .f32)
        (sqrt (F := Ideal) (φ := .f32)
          (shapeCast ⟨2, ![a, 1]⟩
            (multiReduction (F := Ideal) .add [1] ⟨1, ![a]⟩ (mulf (F := Ideal) (φ := .f32) h h) 0x00000000#32 hR hφ hacc) hC))
        (broadcast ⟨2, ![a, 1]⟩ tiny)) hB)

/-- Entry `(p, q)` of it: entry `q` of row `p` over that row's clamped length. -/
theorem unitBody_apply (h : FVec Ideal ⟨2, ![a, b]⟩ .f32) (p : Fin a) (q : Fin b) :
    unitBody hR hφ hacc hC hB tiny h (ix2 p q) = Cert.Spec.rowUnit tiny (fun k : Fin b => h (ix2 p k)) q :=
  congrArg (fun d => Ideal.div (h (ix2 p q)) d)
    ((broadcastTo_a1_ab_apply _ hB p q).trans
      (congrArg (fun s => max (Ideal.sqrt s) tiny)
        (keptRowSum_apply (mulf (F := Ideal) (φ := .f32) h h) hR hφ hacc hC p 0)))

end Body

/-! ## The program's two bodies -/

/-- Entry `(p, q)` of the first normalisation's block: with `y = x (p, ·) + b` the biased row `p`, its mean `μ` and
    variance `v` over the 128 lanes, the entry is `max ((y_q - μ) · (v + ε)^(-1/2) · g_q + β_q) 0`. It reads row `p` of the
    block and the three parameter rows, nothing else. -/
theorem normA_apply (x0 : Vec Ideal S2000x128 .f32) (x1 x2 x3 : Vec Ideal S1x128 .f32) (p : Fin 2000) (q : Fin 128) :
    k1_pay1 (F := Ideal) x0 x1 x2 x3 (ix2 p q)
      = Cert.Spec.rowNormRelu Cert.Spec.c128 Cert.Spec.cEps Cert.Spec.cZero
          (fun k : Fin 128 => x0 (ix2 p k) + x1 (ix2 0 k)) (fun k : Fin 128 => x2 (ix2 0 k)) (fun k : Fin 128 => x3 (ix2 0 k)) q :=
  normBody_apply (a := 2000) (b := 128) Facts₀.shapeCasts_S2000x128_S2000x128 Facts₀.shapeCasts_S1x128_S1x128
    Facts₀.broadcasts_S1x128_S2000x128 Facts₀.reduces_S2000x128_S2000 (.inl rfl) rfl Facts₀.shapeCasts_S2000_S2000x1
    Facts₀.broadcasts_S2000x1_S2000x128 Cert.Spec.c128 Cert.Spec.cEps Cert.Spec.cZero x0 x1 x2 x3 p q

/-- Entry `(p, q)` of the second normalisation's block: the same over 64 lanes gives the row `h`; the entry is `h_q`
    divided by `max (√(∑ₖ hₖ²)) tiny`, the row's clamped Euclidean length. -/
theorem normB_apply (x0 : Vec Ideal S2000x64 .f32) (x1 x2 x3 : Vec Ideal S1x64 .f32) (p : Fin 2000) (q : Fin 64) :
    k3_pay1 (F := Ideal) x0 x1 x2 x3 (ix2 p q)
      = Cert.Spec.rowUnit Cert.Spec.cTiny
          (fun q' : Fin 64 => Cert.Spec.rowNormRelu Cert.Spec.c64 Cert.Spec.cEps Cert.Spec.cZero
            (fun k : Fin 64 => x0 (ix2 p k) + x1 (ix2 0 k)) (fun k : Fin 64 => x2 (ix2 0 k)) (fun k : Fin 64 => x3 (ix2 0 k)) q') q :=
  (unitBody_apply (a := 2000) (b := 64) Facts₀.reduces_S2000x64_S2000 (.inl rfl) rfl Facts₀.shapeCasts_S2000_S2000x1
      Facts₀.broadcasts_S2000x1_S2000x64 Cert.Spec.cTiny
      (normBody (a := 2000) (b := 64) Facts₀.shapeCasts_S2000x64_S2000x64 Facts₀.shapeCasts_S1x64_S1x64
        Facts₀.broadcasts_S1x64_S2000x64 Facts₀.reduces_S2000x64_S2000 (.inl rfl) rfl Facts₀.shapeCasts_S2000_S2000x1
        Facts₀.broadcasts_S2000x1_S2000x64 Cert.Spec.c64 Cert.Spec.cEps Cert.Spec.cZero x0 x1 x2 x3) p q).trans
    (congrArg (fun h : Fin 64 → EReal => Cert.Spec.rowUnit Cert.Spec.cTiny h q)
      (funext fun q' : Fin 64 =>
        normBody_apply (a := 2000) (b := 64) Facts₀.shapeCasts_S2000x64_S2000x64 Facts₀.shapeCasts_S1x64_S1x64
          Facts₀.broadcasts_S1x64_S2000x64 Facts₀.reduces_S2000x64_S2000 (.inl rfl) rfl Facts₀.shapeCasts_S2000_S2000x1
          Facts₀.broadcasts_S2000x1_S2000x64 Cert.Spec.c64 Cert.Spec.cEps Cert.Spec.cZero x0 x1 x2 x3 p q'))

end Cert.KernelIdeal.NormBlock

end
-- ==== Proof.NormTiles1.lean ====
/-
  The first normalisation, from row blocks to the whole array.

  The grid has 25 points; point `t` reads rows `2000·t … 2000·t + 1999` of the aggregated array and the three
  parameter rows (bias, scale, shift) whole, and writes the same rows of the result. Entry `(p, q)` of the block is a
  function of row `p` of the loaded block and of the parameter rows only, and row `p` of block `t` IS row
  `2000·t + p` of the array: so what point `t` writes back is block `t` of the row-by-row normalisation of the whole
  array. Row `r` lies in block `r / 2000`, so the blocks cover the array, and the array after the region is the
  normalisation of the arrays the region found.
-/
import proofs.«133334_j49546742726739_1_alg».proof.Proof.Gen.KernelIdeal.Frame
import proofs.«133334_j49546742726739_1_alg».proof.Proof.NormBlock
import proofs.«133334_j49546742726739_1_alg».proof.Proof.Spec
import Idealize.ShloMosaic.Lib.Pipeline.Value

set_option maxRecDepth 16384

noncomputable section

open scoped BigOperators

namespace Cert.KernelIdeal.NormTiles1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input's and the result's blocks are block row `t`, column block 0; each
    of the three parameter rows is always its one block. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the whole-array normalisation of the arrays the region found: entry
    `(p, q)` of the block reads row `p` of the loaded block, which is row `2000·t + p` of the array, and the three
    parameter rows, which are loaded whole. -/
theorem flushed_eq (c : Dev nD) (t : Fin cfg1.N) :
    (dat1 V c).flushed 4 t = ((cfg1.win 4).blk t).view.read (Elt Ideal)
      (Cert.Spec.normRelu (n := 50000) (D := 128) Cert.Spec.c128 Cert.Spec.cEps Cert.Spec.cZero (V c main_v43) (V c main_v44) (V c main_v45) (V c main_v46)) := by
  show (cfg1.win 4).cut (grid1.coords t) ((dat1 V c).after 4 t) = _
  rw [after1_4]
  unfold out1_4
  rw [View.canon_unit_zero origin]
  simp only [View.ld_unit_zero (S := S2000x128) origin, View.ld_unit_zero (S := S1x128) origin]
  obtain ⟨e0, e1, e2, e3, e4, e5, e6, e7, e8, e9⟩ := blockIndex t
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (ix2 p q)
    = Cert.Spec.normRelu (n := 50000) (D := 128) Cert.Spec.c128 Cert.Spec.cEps Cert.Spec.cZero (V c main_v43) (V c main_v44) (V c main_v45) (V c main_v46) (((cfg1.win 4).blk t).view.emb (ix2 p q))
  refine (NormBlock.normA_apply _ _ _ _ p q).trans ?_
  -- row `p` of the loaded block is the array's row under entry `(p, q)` of the result block
  have h0 : ∀ k : Fin 128, iblk1 V c 0 t (ix2 p k)
      = V c main_v43 (ix2 (Cert.Spec.rowOf (((cfg1.win 4).blk t).view.emb (ix2 p q))) k) := fun k => by
    show V c main_v43 (((cfg1.win 0).blk t).view.emb (ix2 p k)) = _
    refine congrArg (V c main_v43) ?_
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * k.val = k.val; omega
  -- each parameter row's one block is the row itself
  have h1 : ∀ k : Fin 128, iblk1 V c 1 t (ix2 0 k) = V c main_v44 (ix2 0 k) := fun k => by
    show V c main_v44 (((cfg1.win 1).blk t).view.emb (ix2 0 k)) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ∀ k : Fin 128, iblk1 V c 2 t (ix2 0 k) = V c main_v45 (ix2 0 k) := fun k => by
    show V c main_v45 (((cfg1.win 2).blk t).view.emb (ix2 0 k)) = _
    refine congrArg (V c main_v45) ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, iblk1 V c 3 t (ix2 0 k) = V c main_v46 (ix2 0 k) := fun k => by
    show V c main_v46 (((cfg1.win 3).blk t).view.emb (ix2 0 k)) = _
    refine congrArg (V c main_v46) ?_
    funext a; apply Fin.ext
    match a with
    | ⟨0, _⟩ => show win1_3.index t (0 : Fin 2) * 1 + 1 * 0 = 0; omega
    | ⟨1, _⟩ => show win1_3.index t (1 : Fin 2) * 128 + 1 * k.val = k.val; omega
  -- and the entry's lane is lane `q` of the array
  have hq : Cert.Spec.colOf (((cfg1.win 4).blk t).view.emb (ix2 p q)) = q := Fin.ext (by
    show win1_4.index t (1 : Fin 2) * 128 + 1 * q.val = q.val; omega)
  unfold Cert.Spec.normRelu Cert.Spec.biasedRow Cert.Spec.theRow
  rw [hq]
  simp only [h0, h1, h2, h3]

/-- An index is in point `t`'s block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v47).slice (win1_4.rect t)).set ↔ _
  rw [View.set_slice_whole, Rect.mem_set_unit]
  exact Iff.rfl

/-- Row `r` lies in the block of point `r / 2000`: the 25 blocks cover the array. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show _ < grid1.N; rw [N_1]; omega⟩, rfl⟩
  obtain ⟨-, -, -, -, -, -, -, -, e8, e9⟩ := blockIndex t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The result array after the region: each row of the biased array normalised over its 128 lanes, scaled, shifted and clamped at zero. -/
theorem final (c : Dev nD) : (dat1 V c).arrAt 4 cfg1.N
    = Cert.Spec.normRelu (n := 50000) (D := 128) Cert.Spec.c128 Cert.Spec.cEps Cert.Spec.cZero (V c main_v43) (V c main_v44) (V c main_v45) (V c main_v46) :=
  (dat1 V c).arrAt_eq_of_cover 4 _ (fun t _ => flushed_eq V c t) cover

end Cert.KernelIdeal.NormTiles1

end
-- ==== Proof.NormTiles2.lean ====
/-
  The second normalisation, from row blocks to the whole array.

  The grid has 25 points; point `t` reads rows `2000·t … 2000·t + 1999` of the aggregated array and the three
  parameter rows (bias, scale, shift) whole, and writes the same rows of the result. Entry `(p, q)` of the block is a
  function of row `p` of the loaded block and of the parameter rows only — the row is normalised over its 64 lanes,
  scaled, shifted, clamped at zero, and then divided by its own Euclidean length — and row `p` of block `t` IS row
  `2000·t + p` of the array: so what point `t` writes back is block `t` of the row-by-row function of the whole array.
  Row `r` lies in block `r / 2000`, so the blocks cover the array, and the array after the region is that function
  of the arrays the region found.
-/
import proofs.«133334_j49546742726739_1_alg».proof.Proof.Gen.KernelIdeal.Frame
import proofs.«133334_j49546742726739_1_alg».proof.Proof.NormBlock
import proofs.«133334_j49546742726739_1_alg».proof.Proof.Spec
import Idealize.ShloMosaic.Lib.Pipeline.Value

set_option maxRecDepth 16384

noncomputable section

open scoped BigOperators

namespace Cert.KernelIdeal.NormTiles2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input's and the result's blocks are block row `t`, column block 0; each
    of the three parameter rows is always its one block. -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the whole-array normalisation of the arrays the region found: entry
    `(p, q)` of the block reads row `p` of the loaded block, which is row `2000·t + p` of the array, and the three
    parameter rows, which are loaded whole. -/
theorem flushed_eq (c : Dev nD) (t : Fin cfg3.N) :
    (dat3 V c).flushed 4 t = ((cfg3.win 4).blk t).view.read (Elt Ideal)
      (Cert.Spec.normReluUnit (n := 50000) (D := 64) Cert.Spec.c64 Cert.Spec.cEps Cert.Spec.cZero Cert.Spec.cTiny (V c main_v61) (V c main_v62) (V c main_v63) (V c main_v64)) := by
  show (cfg3.win 4).cut (grid3.coords t) ((dat3 V c).after 4 t) = _
  rw [after3_4]
  unfold out3_4
  rw [View.canon_unit_zero origin]
  simp only [View.ld_unit_zero (S := S2000x64) origin, View.ld_unit_zero (S := S1x64) origin]
  obtain ⟨e0, e1, e2, e3, e4, e5, e6, e7, e8, e9⟩ := blockIndex t
  funext j
  obtain ⟨p, q, rfl⟩ : ∃ (p : Fin 2000) (q : Fin 64), j = ix2 p q := ⟨j 0, j 1, eq_ix2 j⟩
  show k3_pay1 (iblk3 V c 0 t) (iblk3 V c 1 t) (iblk3 V c 2 t) (iblk3 V c 3 t) (ix2 p q)
    = Cert.Spec.normReluUnit (n := 50000) (D := 64) Cert.Spec.c64 Cert.Spec.cEps Cert.Spec.cZero Cert.Spec.cTiny (V c main_v61) (V c main_v62) (V c main_v63) (V c main_v64) (((cfg3.win 4).blk t).view.emb (ix2 p q))
  refine (NormBlock.normB_apply _ _ _ _ p q).trans ?_
  -- row `p` of the loaded block is the array's row under entry `(p, q)` of the result block
  have h0 : ∀ k : Fin 64, iblk3 V c 0 t (ix2 p k)
      = V c main_v61 (ix2 (Cert.Spec.rowOf (((cfg3.win 4).blk t).view.emb (ix2 p q))) k) := fun k => by
    show V c main_v61 (((cfg3.win 0).blk t).view.emb (ix2 p k)) = _
    refine congrArg (V c main_v61) ?_
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 64 + 1 * k.val = k.val; omega
  -- each parameter row's one block is the row itself
  have h1 : ∀ k : Fin 64, iblk3 V c 1 t (ix2 0 k) = V c main_v62 (ix2 0 k) := fun k => by
    show V c main_v62 (((cfg3.win 1).blk t).view.emb (ix2 0 k)) = _
    refine congrArg (V c main_v62) ?_
    funext a; apply Fin.ext
    match a with
    | ⟨0, _⟩ => show win3_1.index t (0 : Fin 2) * 1 + 1 * 0 = 0; omega
    | ⟨1, _⟩ => show win3_1.index t (1 : Fin 2) * 64 + 1 * k.val = k.val; omega
  have h2 : ∀ k : Fin 64, iblk3 V c 2 t (ix2 0 k) = V c main_v63 (ix2 0 k) := fun k => by
    show V c main_v63 (((cfg3.win 2).blk t).view.emb (ix2 0 k)) = _
    refine congrArg (V c main_v63) ?_
    funext a; apply Fin.ext
    match a with
    | ⟨0, _⟩ => show win3_2.index t (0 : Fin 2) * 1 + 1 * 0 = 0; omega
    | ⟨1, _⟩ => show win3_2.index t (1 : Fin 2) * 64 + 1 * k.val = k.val; omega
  have h3 : ∀ k : Fin 64, iblk3 V c 3 t (ix2 0 k) = V c main_v64 (ix2 0 k) := fun k => by
    show V c main_v64 (((cfg3.win 3).blk t).view.emb (ix2 0 k)) = _
    refine congrArg (V c main_v64) ?_
    funext a; apply Fin.ext
    match a with
    | ⟨0, _⟩ => show win3_3.index t (0 : Fin 2) * 1 + 1 * 0 = 0; omega
    | ⟨1, _⟩ => show win3_3.index t (1 : Fin 2) * 64 + 1 * k.val = k.val; omega
  -- and the entry's lane is lane `q` of the array
  have hq : Cert.Spec.colOf (((cfg3.win 4).blk t).view.emb (ix2 p q)) = q := Fin.ext (by
    show win3_4.index t (1 : Fin 2) * 64 + 1 * q.val = q.val; omega)
  unfold Cert.Spec.normReluUnit Cert.Spec.biasedRow Cert.Spec.theRow
  rw [hq]
  simp only [h0, h1, h2, h3]

/-- An index is in point `t`'s block iff each coordinate is in the block's range on its axis. -/
theorem mem_blk (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v65).slice (win3_4.rect t)).set ↔ _
  rw [View.set_slice_whole, Rect.mem_set_unit]
  exact Iff.rfl

/-- Row `r` lies in the block of point `r / 2000`: the 25 blocks cover the array. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ : ∃ t : Fin cfg3.N, t.val = (i 0).val / 2000 :=
    ⟨⟨(i 0).val / 2000, by show _ < grid3.N; rw [N_3]; omega⟩, rfl⟩
  obtain ⟨-, -, -, -, -, -, -, -, e8, e9⟩ := blockIndex t
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- The result array after the region: each row of the biased array normalised over its 64 lanes, scaled, shifted, clamped at zero, then divided by its clamped Euclidean length. -/
theorem final (c : Dev nD) : (dat3 V c).arrAt 4 cfg3.N
    = Cert.Spec.normReluUnit (n := 50000) (D := 64) Cert.Spec.c64 Cert.Spec.cEps Cert.Spec.cZero Cert.Spec.cTiny (V c main_v61) (V c main_v62) (V c main_v63) (V c main_v64) :=
  (dat3 V c).arrAt_eq_of_cover 4 _ (fun t _ => flushed_eq V c t) cover

end Cert.KernelIdeal.NormTiles2

end
-- ==== Proof.KernelChain.lean ====
/-
  The tiled program's result is the whole-array program's, stage by stage.

  Between the four tiled regions the program runs, line for line, the whole-array program's own host operations: the
  graph's normalisation before the first product, and after each product the gather / scale / scatter-add over the
  edges (and the reshape of each parameter vector into a row). So the buffer contents at each of the nine boundaries
  are read off the boundary before: a host stretch leaves the whole-array program's stage of the same inputs; a region
  leaves its output array at the whole-array function its tiles add up to — the dense product, or the row-by-row
  normalisation — which is that program's stage too. Nothing shared is ever opened: the edge lists, the edge weights
  and the two aggregated arrays stand as the same folded stage on both sides.
-/
import proofs.«133334_j49546742726739_1_alg».proof.Proof.Gen.KernelIdeal.Frame
import proofs.«133334_j49546742726739_1_alg».proof.Proof.RefRead
import proofs.«133334_j49546742726739_1_alg».proof.Proof.RefStages
import proofs.«133334_j49546742726739_1_alg».proof.Proof.ProductTiles1
import proofs.«133334_j49546742726739_1_alg».proof.Proof.ProductTiles2
import proofs.«133334_j49546742726739_1_alg».proof.Proof.NormTiles1
import proofs.«133334_j49546742726739_1_alg».proof.Proof.NormTiles2
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- Contents moved to a buffer's own type and back are the contents. -/
theorem ofBuf_toBuf {T : BufTy} (x : TRef sig T) (v : T.Contents (Elt Ideal)) : x.ofBuf (x.toBuf v) = v := by
  obtain ⟨r, h, _, _⟩ := x
  subst h
  rfl

/-! ## Reshaping a vector into a one-row array

The tiled program turns each parameter vector `[D]` into a row `[1, D]` by a reshape; the whole-array program by a
broadcast along a new leading axis. Both read entry `(0, k)` of the row from entry `k` of the vector. -/

theorem rowCast128 (x : (⟨S128, .f32⟩ : BufTy).Contents (Elt Ideal)) :
    shapeCast S1x128 x shapeCasts_S128_S1x128 = Cert.ReferenceIdeal.Read.val_main_v44 (F := Ideal) x := by
  funext i
  rw [Cert.ReferenceIdeal.Read.val_main_v44_apply]
  refine shapeCast_apply x _ i _ ?_
  rw [Shape.rowMajor_val_one, Shape.rowMajor_val_two]
  have h0 : (i 0).val < 1 := (i 0).isLt
  show (i 1).val = (i 0).val * 128 + (i 1).val
  omega

theorem rowCast64 (x : (⟨S64, .f32⟩ : BufTy).Contents (Elt Ideal)) :
    shapeCast S1x64 x shapeCasts_S64_S1x64 = Cert.ReferenceIdeal.Read.val_main_v86 (F := Ideal) x := by
  funext i
  rw [Cert.ReferenceIdeal.Read.val_main_v86_apply]
  refine shapeCast_apply x _ i _ ?_
  rw [Shape.rowMajor_val_one, Shape.rowMajor_val_two]
  have h0 : (i 0).val < 1 := (i 0).isLt
  show (i 1).val = (i 0).val * 64 + (i 1).val
  omega

/-! ## Each stretch of host operations over any contents, given the buffers it reads

The host operations between the regions are, line for line, the whole-array program's own; over the same inputs
each stretch leaves the stage of the operation-by-operation reading. -/

section Stretches
variable (V : Valuation τ sig (Elt Ideal))

/-- Before the degree test: the two index lists, the comparison `deg > 0`, `deg^(-1/2)` and the zero it falls back to. -/
theorem stretch_lists (x1 : (⟨S2x800000, .i32⟩ : BufTy).Contents (Elt Ideal)) (h1 : V (Proc.devRef .tc main_arg1) = x1) :
    after hostOps0 V (Proc.devRef .tc main_v3) = Cert.ReferenceIdeal.Read.val_main_v3 (F := Ideal) x1
    ∧ after hostOps0 V (Proc.devRef .tc main_v6) = Cert.ReferenceIdeal.Read.val_main_v6 (F := Ideal) x1
    ∧ after hostOps0 V (Proc.devRef .tc main_v12) = Cert.ReferenceIdeal.Read.val_main_v12 (F := Ideal) x1
    ∧ after hostOps0 V (Proc.devRef .tc main_v13) = Cert.ReferenceIdeal.Read.val_main_v13 (F := Ideal) x1
    ∧ after hostOps0 V (Proc.devRef .tc main_cst_2) = Cert.ReferenceIdeal.Read.val_main_cst_2 (F := Ideal) := by
  subst h1
  refine ⟨?_, ?_, ?_, ?_, ?_⟩
  · after_results_simp; rfl
  · after_results_simp; rfl
  · after_results_simp; rfl
  · after_results_simp; rfl
  · after_results_simp; rfl

/-- The degree test: `deg^(-1/2)` where the degree is positive, zero elsewhere. (Read through the buffer's own type, so
    that the selection stays the outermost operation on both sides.) -/
theorem stretch_where (x1 : (⟨S2x800000, .i32⟩ : BufTy).Contents (Elt Ideal)) (h12 : V (Proc.devRef .tc main_v12) = Cert.ReferenceIdeal.Read.val_main_v12 (F := Ideal) x1)
    (h13 : V (Proc.devRef .tc main_v13) = Cert.ReferenceIdeal.Read.val_main_v13 (F := Ideal) x1) (hc : V (Proc.devRef .tc main_cst_2) = Cert.ReferenceIdeal.Read.val_main_cst_2 (F := Ideal)) :
    after hostOps0_1 V (Proc.devRef .tc main_v14) = Cert.ReferenceIdeal.Read.val_main_v14 (F := Ideal) x1 := by
  have key : (TRef.of main_v14 : TRef sig ⟨S50000, .f32⟩).ofBuf (after hostOps0_1 V (Proc.devRef .tc main_v14)) = Cert.ReferenceIdeal.Read.val_main_v14 (F := Ideal) x1 := by
    after_results_simp
    simp only [ofBuf_toBuf]
    rw [h12, h13, hc]
    rfl
  exact key

/-- The edge weights: the two ends' factors gathered and multiplied. -/
theorem stretch_weights (x1 : (⟨S2x800000, .i32⟩ : BufTy).Contents (Elt Ideal)) (h3 : V (Proc.devRef .tc main_v3) = Cert.ReferenceIdeal.Read.val_main_v3 (F := Ideal) x1)
    (h6 : V (Proc.devRef .tc main_v6) = Cert.ReferenceIdeal.Read.val_main_v6 (F := Ideal) x1) (h14 : V (Proc.devRef .tc main_v14) = Cert.ReferenceIdeal.Read.val_main_v14 (F := Ideal) x1) :
    after hostOps0_2 V (Proc.devRef .tc main_v29) = Cert.ReferenceIdeal.Read.val_main_v29 (F := Ideal) x1 := by
  after_results_simp
  rw [h3, h6, h14]
  rfl

/-- The first aggregation over the edges, of the product it finds. -/
theorem stretch_agg1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (h30 : V (Proc.devRef .tc main_v30) = Cert.ReferenceIdeal.Read.val_main_v30 (F := Ideal) x0 x2)
    (h3 : V (Proc.devRef .tc main_v3) = Cert.ReferenceIdeal.Read.val_main_v3 (F := Ideal) x1) (h6 : V (Proc.devRef .tc main_v6) = Cert.ReferenceIdeal.Read.val_main_v6 (F := Ideal) x1)
    (h29 : V (Proc.devRef .tc main_v29) = Cert.ReferenceIdeal.Read.val_main_v29 (F := Ideal) x1) :
    after hostOps1 V (Proc.devRef .tc main_v43) = Cert.ReferenceIdeal.Read.val_main_v43 (F := Ideal) x0 x1 x2 := by
  after_results_simp
  rw [h30, h3, h6, h29]
  rfl

/-- The first layer's three parameter rows. -/
theorem stretch_rows1 (x3 : (⟨S128, .f32⟩ : BufTy).Contents (Elt Ideal)) (x4 : (⟨S128, .f32⟩ : BufTy).Contents (Elt Ideal)) (x5 : (⟨S128, .f32⟩ : BufTy).Contents (Elt Ideal)) (h3 : V (Proc.devRef .tc main_arg3) = x3) (h4 : V (Proc.devRef .tc main_arg4) = x4) (h5 : V (Proc.devRef .tc main_arg5) = x5) :
    after hostOps1 V (Proc.devRef .tc main_v44) = Cert.ReferenceIdeal.Read.val_main_v44 (F := Ideal) x3
    ∧ after hostOps1 V (Proc.devRef .tc main_v45) = Cert.ReferenceIdeal.Read.val_main_v65 (F := Ideal) x4
    ∧ after hostOps1 V (Proc.devRef .tc main_v46) = Cert.ReferenceIdeal.Read.val_main_v68 (F := Ideal) x5 := by
  subst h3 h4 h5
  refine ⟨?_, ?_, ?_⟩
  · after_results_simp; exact rowCast128 _
  · after_results_simp; exact rowCast128 _
  · after_results_simp; exact rowCast128 _

/-- The second aggregation. -/
theorem stretch_agg2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x64, .f32⟩ : BufTy).Contents (Elt Ideal)) (h48 : V (Proc.devRef .tc main_v48) = Cert.ReferenceIdeal.Read.val_main_v72 (F := Ideal) x0 x1 x2 x3 x4 x5 x6)
    (h3 : V (Proc.devRef .tc main_v3) = Cert.ReferenceIdeal.Read.val_main_v3 (F := Ideal) x1) (h6 : V (Proc.devRef .tc main_v6) = Cert.ReferenceIdeal.Read.val_main_v6 (F := Ideal) x1)
    (h29 : V (Proc.devRef .tc main_v29) = Cert.ReferenceIdeal.Read.val_main_v29 (F := Ideal) x1) :
    after hostOps3 V (Proc.devRef .tc main_v61) = Cert.ReferenceIdeal.Read.val_main_v85 (F := Ideal) x0 x1 x2 x3 x4 x5 x6 := by
  after_results_simp
  rw [h48, h3, h6, h29]
  rfl

/-- The second layer's three parameter rows. -/
theorem stretch_rows2 (x7 : (⟨S64, .f32⟩ : BufTy).Contents (Elt Ideal)) (x8 : (⟨S64, .f32⟩ : BufTy).Contents (Elt Ideal)) (x9 : (⟨S64, .f32⟩ : BufTy).Contents (Elt Ideal)) (h7 : V (Proc.devRef .tc main_arg7) = x7) (h8 : V (Proc.devRef .tc main_arg8) = x8) (h9 : V (Proc.devRef .tc main_arg9) = x9) :
    after hostOps3 V (Proc.devRef .tc main_v62) = Cert.ReferenceIdeal.Read.val_main_v86 (F := Ideal) x7
    ∧ after hostOps3 V (Proc.devRef .tc main_v63) = Cert.ReferenceIdeal.Read.val_main_v107 (F := Ideal) x8
    ∧ after hostOps3 V (Proc.devRef .tc main_v64) = Cert.ReferenceIdeal.Read.val_main_v110 (F := Ideal) x9 := by
  subst h7 h8 h9
  refine ⟨?_, ?_, ?_⟩
  · after_results_simp; exact rowCast64 _
  · after_results_simp; exact rowCast64 _
  · after_results_simp; exact rowCast64 _

end Stretches

/-! ## Buffers a stretch leaves alone -/

theorem kept_where (V : Valuation τ sig (Elt Ideal)) :
    after hostOps0_1 V (Proc.devRef .tc main_v3) = V (Proc.devRef .tc main_v3)
    ∧ after hostOps0_1 V (Proc.devRef .tc main_v6) = V (Proc.devRef .tc main_v6) := by
  refine ⟨?_, ?_⟩ <;> after_results_simp
theorem kept_weights (V : Valuation τ sig (Elt Ideal)) :
    after hostOps0_2 V (Proc.devRef .tc main_v3) = V (Proc.devRef .tc main_v3)
    ∧ after hostOps0_2 V (Proc.devRef .tc main_v6) = V (Proc.devRef .tc main_v6) := by
  refine ⟨?_, ?_⟩ <;> after_results_simp
theorem kept_agg1 (V : Valuation τ sig (Elt Ideal)) :
    after hostOps1 V (Proc.devRef .tc main_v3) = V (Proc.devRef .tc main_v3)
    ∧ after hostOps1 V (Proc.devRef .tc main_v6) = V (Proc.devRef .tc main_v6)
    ∧ after hostOps1 V (Proc.devRef .tc main_v29) = V (Proc.devRef .tc main_v29)
    ∧ after hostOps1 V (Proc.devRef .tc main_arg6) = V (Proc.devRef .tc main_arg6)
    ∧ after hostOps1 V (Proc.devRef .tc main_arg7) = V (Proc.devRef .tc main_arg7)
    ∧ after hostOps1 V (Proc.devRef .tc main_arg8) = V (Proc.devRef .tc main_arg8)
    ∧ after hostOps1 V (Proc.devRef .tc main_arg9) = V (Proc.devRef .tc main_arg9) := by
  refine ⟨?_, ?_, ?_, ?_, ?_, ?_, ?_⟩ <;> after_results_simp

/-! ## The contents at each boundary, from the launch memory to the result

`x₀ … x₉` below are the argument arrays as launched. Each boundary's buffers are read from the boundary before: a
stretch by its step above, a region by its tiles' whole-array form and the stage that form is. -/

section Fold
variable (m : (ℓ : Loc nD τ sig) → Buf (Elt Ideal) ℓ) (ρ : Dev nD → PrngReg) (c : Dev nD)

theorem w1 : W1 m ρ c (Proc.devRef .tc main_v3) = Cert.ReferenceIdeal.Read.val_main_v3 (F := Ideal) (m ((c : Thread nD τ).loc main_arg1)) ∧ W1 m ρ c (Proc.devRef .tc main_v6) = Cert.ReferenceIdeal.Read.val_main_v6 (F := Ideal) (m ((c : Thread nD τ).loc main_arg1))
    ∧ W1 m ρ c (Proc.devRef .tc main_v12) = Cert.ReferenceIdeal.Read.val_main_v12 (F := Ideal) (m ((c : Thread nD τ).loc main_arg1)) ∧ W1 m ρ c (Proc.devRef .tc main_v13) = Cert.ReferenceIdeal.Read.val_main_v13 (F := Ideal) (m ((c : Thread nD τ).loc main_arg1))
    ∧ W1 m ρ c (Proc.devRef .tc main_cst_2) = Cert.ReferenceIdeal.Read.val_main_cst_2 (F := Ideal) :=
  stretch_lists (W0 m ρ c) _ rfl
theorem w2_v14 : W2 m ρ c (Proc.devRef .tc main_v14) = Cert.ReferenceIdeal.Read.val_main_v14 (F := Ideal) (m ((c : Thread nD τ).loc main_arg1)) :=
  stretch_where (W1 m ρ c) _ (w1 m ρ c).2.2.1 (w1 m ρ c).2.2.2.1 (w1 m ρ c).2.2.2.2
theorem w2_v3 : W2 m ρ c (Proc.devRef .tc main_v3) = Cert.ReferenceIdeal.Read.val_main_v3 (F := Ideal) (m ((c : Thread nD τ).loc main_arg1)) :=
  (kept_where (W1 m ρ c)).1.trans (w1 m ρ c).1
theorem w2_v6 : W2 m ρ c (Proc.devRef .tc main_v6) = Cert.ReferenceIdeal.Read.val_main_v6 (F := Ideal) (m ((c : Thread nD τ).loc main_arg1)) :=
  (kept_where (W1 m ρ c)).2.trans (w1 m ρ c).2.1
theorem w3_v29 : W3 m ρ c (Proc.devRef .tc main_v29) = Cert.ReferenceIdeal.Read.val_main_v29 (F := Ideal) (m ((c : Thread nD τ).loc main_arg1)) :=
  stretch_weights (W2 m ρ c) _ (w2_v3 m ρ c) (w2_v6 m ρ c) (w2_v14 m ρ c)
theorem w3_v3 : W3 m ρ c (Proc.devRef .tc main_v3) = Cert.ReferenceIdeal.Read.val_main_v3 (F := Ideal) (m ((c : Thread nD τ).loc main_arg1)) :=
  (kept_weights (W2 m ρ c)).1.trans (w2_v3 m ρ c)
theorem w3_v6 : W3 m ρ c (Proc.devRef .tc main_v6) = Cert.ReferenceIdeal.Read.val_main_v6 (F := Ideal) (m ((c : Thread nD τ).loc main_arg1)) :=
  (kept_weights (W2 m ρ c)).2.trans (w2_v6 m ρ c)
theorem w3_a0 : W3 m ρ c (Proc.devRef .tc main_arg0) = m ((c : Thread nD τ).loc main_arg0) := by
  show after hostOps0_2 (after hostOps0_1 (after hostOps0 (W0 m ρ c))) (Proc.devRef .tc main_arg0) = _
  after_results_simp
theorem w3_a2 : W3 m ρ c (Proc.devRef .tc main_arg2) = m ((c : Thread nD τ).loc main_arg2) := by
  show after hostOps0_2 (after hostOps0_1 (after hostOps0 (W0 m ρ c))) (Proc.devRef .tc main_arg2) = _
  after_results_simp
theorem w3_a3 : W3 m ρ c (Proc.devRef .tc main_arg3) = m ((c : Thread nD τ).loc main_arg3) := by
  show after hostOps0_2 (after hostOps0_1 (after hostOps0 (W0 m ρ c))) (Proc.devRef .tc main_arg3) = _
  after_results_simp
theorem w3_a4 : W3 m ρ c (Proc.devRef .tc main_arg4) = m ((c : Thread nD τ).loc main_arg4) := by
  show after hostOps0_2 (after hostOps0_1 (after hostOps0 (W0 m ρ c))) (Proc.devRef .tc main_arg4) = _
  after_results_simp
theorem w3_a5 : W3 m ρ c (Proc.devRef .tc main_arg5) = m ((c : Thread nD τ).loc main_arg5) := by
  show after hostOps0_2 (after hostOps0_1 (after hostOps0 (W0 m ρ c))) (Proc.devRef .tc main_arg5) = _
  after_results_simp
theorem w3_a6 : W3 m ρ c (Proc.devRef .tc main_arg6) = m ((c : Thread nD τ).loc main_arg6) := by
  show after hostOps0_2 (after hostOps0_1 (after hostOps0 (W0 m ρ c))) (Proc.devRef .tc main_arg6) = _
  after_results_simp
theorem w3_a7 : W3 m ρ c (Proc.devRef .tc main_arg7) = m ((c : Thread nD τ).loc main_arg7) := by
  show after hostOps0_2 (after hostOps0_1 (after hostOps0 (W0 m ρ c))) (Proc.devRef .tc main_arg7) = _
  after_results_simp
theorem w3_a8 : W3 m ρ c (Proc.devRef .tc main_arg8) = m ((c : Thread nD τ).loc main_arg8) := by
  show after hostOps0_2 (after hostOps0_1 (after hostOps0 (W0 m ρ c))) (Proc.devRef .tc main_arg8) = _
  after_results_simp
theorem w3_a9 : W3 m ρ c (Proc.devRef .tc main_arg9) = m ((c : Thread nD τ).loc main_arg9) := by
  show after hostOps0_2 (after hostOps0_1 (after hostOps0 (W0 m ρ c))) (Proc.devRef .tc main_arg9) = _
  after_results_simp

/-- After the first product: the product of the features and the first weights. -/
theorem w4_v30 : W4 m ρ c (Proc.devRef .tc main_v30) = Cert.ReferenceIdeal.Read.val_main_v30 (F := Ideal) (m ((c : Thread nD τ).loc main_arg0)) (m ((c : Thread nD τ).loc main_arg2)) := by
  refine (show W4 m ρ c (Proc.devRef .tc main_v30) = (dat0 (V3 m ρ) c).arrAt 2 cfg0.N from W4_arr m ρ c 2).trans ((ProductTiles1.final (V3 m ρ) c).trans ?_)
  rw [show V3 m ρ c main_arg0 = m ((c : Thread nD τ).loc main_arg0) from w3_a0 m ρ c, show V3 m ρ c main_arg2 = m ((c : Thread nD τ).loc main_arg2) from w3_a2 m ρ c]
  exact (Cert.ReferenceIdeal.Stages.prod1 _ _).symm
theorem w4_v3 : W4 m ρ c (Proc.devRef .tc main_v3) = Cert.ReferenceIdeal.Read.val_main_v3 (F := Ideal) (m ((c : Thread nD τ).loc main_arg1)) :=
  (W4_of_ne m ρ c main_v3 (by decide)).trans (w3_v3 m ρ c)
theorem w4_v6 : W4 m ρ c (Proc.devRef .tc main_v6) = Cert.ReferenceIdeal.Read.val_main_v6 (F := Ideal) (m ((c : Thread nD τ).loc main_arg1)) :=
  (W4_of_ne m ρ c main_v6 (by decide)).trans (w3_v6 m ρ c)
theorem w4_v29 : W4 m ρ c (Proc.devRef .tc main_v29) = Cert.ReferenceIdeal.Read.val_main_v29 (F := Ideal) (m ((c : Thread nD τ).loc main_arg1)) :=
  (W4_of_ne m ρ c main_v29 (by decide)).trans (w3_v29 m ρ c)
theorem w4_a3 : W4 m ρ c (Proc.devRef .tc main_arg3) = m ((c : Thread nD τ).loc main_arg3) :=
  (W4_of_ne m ρ c main_arg3 (by decide)).trans (w3_a3 m ρ c)
theorem w4_a4 : W4 m ρ c (Proc.devRef .tc main_arg4) = m ((c : Thread nD τ).loc main_arg4) :=
  (W4_of_ne m ρ c main_arg4 (by decide)).trans (w3_a4 m ρ c)
theorem w4_a5 : W4 m ρ c (Proc.devRef .tc main_arg5) = m ((c : Thread nD τ).loc main_arg5) :=
  (W4_of_ne m ρ c main_arg5 (by decide)).trans (w3_a5 m ρ c)
theorem w4_a6 : W4 m ρ c (Proc.devRef .tc main_arg6) = m ((c : Thread nD τ).loc main_arg6) :=
  (W4_of_ne m ρ c main_arg6 (by decide)).trans (w3_a6 m ρ c)
theorem w4_a7 : W4 m ρ c (Proc.devRef .tc main_arg7) = m ((c : Thread nD τ).loc main_arg7) :=
  (W4_of_ne m ρ c main_arg7 (by decide)).trans (w3_a7 m ρ c)
theorem w4_a8 : W4 m ρ c (Proc.devRef .tc main_arg8) = m ((c : Thread nD τ).loc main_arg8) :=
  (W4_of_ne m ρ c main_arg8 (by decide)).trans (w3_a8 m ρ c)
theorem w4_a9 : W4 m ρ c (Proc.devRef .tc main_arg9) = m ((c : Thread nD τ).loc main_arg9) :=
  (W4_of_ne m ρ c main_arg9 (by decide)).trans (w3_a9 m ρ c)

theorem w5_v43 : W5 m ρ c (Proc.devRef .tc main_v43) = Cert.ReferenceIdeal.Read.val_main_v43 (F := Ideal) (m ((c : Thread nD τ).loc main_arg0)) (m ((c : Thread nD τ).loc main_arg1)) (m ((c : Thread nD τ).loc main_arg2)) :=
  stretch_agg1 (W4 m ρ c) _ _ _ (w4_v30 m ρ c) (w4_v3 m ρ c) (w4_v6 m ρ c) (w4_v29 m ρ c)
theorem w5_rows : W5 m ρ c (Proc.devRef .tc main_v44) = Cert.ReferenceIdeal.Read.val_main_v44 (F := Ideal) (m ((c : Thread nD τ).loc main_arg3)) ∧ W5 m ρ c (Proc.devRef .tc main_v45) = Cert.ReferenceIdeal.Read.val_main_v65 (F := Ideal) (m ((c : Thread nD τ).loc main_arg4))
    ∧ W5 m ρ c (Proc.devRef .tc main_v46) = Cert.ReferenceIdeal.Read.val_main_v68 (F := Ideal) (m ((c : Thread nD τ).loc main_arg5)) :=
  stretch_rows1 (W4 m ρ c) _ _ _ (w4_a3 m ρ c) (w4_a4 m ρ c) (w4_a5 m ρ c)
theorem w5_v3 : W5 m ρ c (Proc.devRef .tc main_v3) = Cert.ReferenceIdeal.Read.val_main_v3 (F := Ideal) (m ((c : Thread nD τ).loc main_arg1)) :=
  (kept_agg1 (W4 m ρ c)).1.trans (w4_v3 m ρ c)
theorem w5_v6 : W5 m ρ c (Proc.devRef .tc main_v6) = Cert.ReferenceIdeal.Read.val_main_v6 (F := Ideal) (m ((c : Thread nD τ).loc main_arg1)) :=
  (kept_agg1 (W4 m ρ c)).2.1.trans (w4_v6 m ρ c)
theorem w5_v29 : W5 m ρ c (Proc.devRef .tc main_v29) = Cert.ReferenceIdeal.Read.val_main_v29 (F := Ideal) (m ((c : Thread nD τ).loc main_arg1)) :=
  (kept_agg1 (W4 m ρ c)).2.2.1.trans (w4_v29 m ρ c)
theorem w5_a6 : W5 m ρ c (Proc.devRef .tc main_arg6) = m ((c : Thread nD τ).loc main_arg6) :=
  (kept_agg1 (W4 m ρ c)).2.2.2.1.trans (w4_a6 m ρ c)
theorem w5_a7 : W5 m ρ c (Proc.devRef .tc main_arg7) = m ((c : Thread nD τ).loc main_arg7) :=
  (kept_agg1 (W4 m ρ c)).2.2.2.2.1.trans (w4_a7 m ρ c)
theorem w5_a8 : W5 m ρ c (Proc.devRef .tc main_arg8) = m ((c : Thread nD τ).loc main_arg8) :=
  (kept_agg1 (W4 m ρ c)).2.2.2.2.2.1.trans (w4_a8 m ρ c)
theorem w5_a9 : W5 m ρ c (Proc.devRef .tc main_arg9) = m ((c : Thread nD τ).loc main_arg9) :=
  (kept_agg1 (W4 m ρ c)).2.2.2.2.2.2.trans (w4_a9 m ρ c)

/-- After the first normalisation: the first layer's output. -/
theorem w6_v47 : W6 m ρ c (Proc.devRef .tc main_v47) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (show W6 m ρ c (Proc.devRef .tc main_v47) = (dat1 (V5 m ρ) c).arrAt 4 cfg1.N from W6_arr m ρ c 4).trans ((NormTiles1.final (V5 m ρ) c).trans ?_)
  rw [show V5 m ρ c main_v43 = Cert.ReferenceIdeal.Read.val_main_v43 (F := Ideal) (m ((c : Thread nD τ).loc main_arg0)) (m ((c : Thread nD τ).loc main_arg1)) (m ((c : Thread nD τ).loc main_arg2)) from w5_v43 m ρ c,
    show V5 m ρ c main_v44 = Cert.ReferenceIdeal.Read.val_main_v44 (F := Ideal) (m ((c : Thread nD τ).loc main_arg3)) from (w5_rows m ρ c).1,
    show V5 m ρ c main_v45 = Cert.ReferenceIdeal.Read.val_main_v65 (F := Ideal) (m ((c : Thread nD τ).loc main_arg4)) from (w5_rows m ρ c).2.1,
    show V5 m ρ c main_v46 = Cert.ReferenceIdeal.Read.val_main_v68 (F := Ideal) (m ((c : Thread nD τ).loc main_arg5)) from (w5_rows m ρ c).2.2]
  exact (Cert.ReferenceIdeal.Stages.norm1 _ _ _ _ _ _).symm
theorem w6_v3 : W6 m ρ c (Proc.devRef .tc main_v3) = Cert.ReferenceIdeal.Read.val_main_v3 (F := Ideal) (m ((c : Thread nD τ).loc main_arg1)) :=
  (W6_of_ne m ρ c main_v3 (by decide)).trans (w5_v3 m ρ c)
theorem w6_v6 : W6 m ρ c (Proc.devRef .tc main_v6) = Cert.ReferenceIdeal.Read.val_main_v6 (F := Ideal) (m ((c : Thread nD τ).loc main_arg1)) :=
  (W6_of_ne m ρ c main_v6 (by decide)).trans (w5_v6 m ρ c)
theorem w6_v29 : W6 m ρ c (Proc.devRef .tc main_v29) = Cert.ReferenceIdeal.Read.val_main_v29 (F := Ideal) (m ((c : Thread nD τ).loc main_arg1)) :=
  (W6_of_ne m ρ c main_v29 (by decide)).trans (w5_v29 m ρ c)
theorem w6_a6 : W6 m ρ c (Proc.devRef .tc main_arg6) = m ((c : Thread nD τ).loc main_arg6) :=
  (W6_of_ne m ρ c main_arg6 (by decide)).trans (w5_a6 m ρ c)
theorem w6_a7 : W6 m ρ c (Proc.devRef .tc main_arg7) = m ((c : Thread nD τ).loc main_arg7) :=
  (W6_of_ne m ρ c main_arg7 (by decide)).trans (w5_a7 m ρ c)
theorem w6_a8 : W6 m ρ c (Proc.devRef .tc main_arg8) = m ((c : Thread nD τ).loc main_arg8) :=
  (W6_of_ne m ρ c main_arg8 (by decide)).trans (w5_a8 m ρ c)
theorem w6_a9 : W6 m ρ c (Proc.devRef .tc main_arg9) = m ((c : Thread nD τ).loc main_arg9) :=
  (W6_of_ne m ρ c main_arg9 (by decide)).trans (w5_a9 m ρ c)

/-- After the second product. -/
theorem w7_v48 : W7 m ρ c (Proc.devRef .tc main_v48) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (show W7 m ρ c (Proc.devRef .tc main_v48) = (dat2 (V6 m ρ) c).arrAt 2 cfg2.N from W7_arr m ρ c 2).trans ((ProductTiles2.final (V6 m ρ) c).trans ?_)
  rw [show V6 m ρ c main_v47 = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from w6_v47 m ρ c, show V6 m ρ c main_arg6 = m ((c : Thread nD τ).loc main_arg6) from w6_a6 m ρ c]
  exact (Cert.ReferenceIdeal.Stages.prod2 _ _ _ _ _ _ _).symm
theorem w7_v3 : W7 m ρ c (Proc.devRef .tc main_v3) = Cert.ReferenceIdeal.Read.val_main_v3 (F := Ideal) (m ((c : Thread nD τ).loc main_arg1)) :=
  (W7_of_ne m ρ c main_v3 (by decide)).trans (w6_v3 m ρ c)
theorem w7_v6 : W7 m ρ c (Proc.devRef .tc main_v6) = Cert.ReferenceIdeal.Read.val_main_v6 (F := Ideal) (m ((c : Thread nD τ).loc main_arg1)) :=
  (W7_of_ne m ρ c main_v6 (by decide)).trans (w6_v6 m ρ c)
theorem w7_v29 : W7 m ρ c (Proc.devRef .tc main_v29) = Cert.ReferenceIdeal.Read.val_main_v29 (F := Ideal) (m ((c : Thread nD τ).loc main_arg1)) :=
  (W7_of_ne m ρ c main_v29 (by decide)).trans (w6_v29 m ρ c)
theorem w7_a7 : W7 m ρ c (Proc.devRef .tc main_arg7) = m ((c : Thread nD τ).loc main_arg7) :=
  (W7_of_ne m ρ c main_arg7 (by decide)).trans (w6_a7 m ρ c)
theorem w7_a8 : W7 m ρ c (Proc.devRef .tc main_arg8) = m ((c : Thread nD τ).loc main_arg8) :=
  (W7_of_ne m ρ c main_arg8 (by decide)).trans (w6_a8 m ρ c)
theorem w7_a9 : W7 m ρ c (Proc.devRef .tc main_arg9) = m ((c : Thread nD τ).loc main_arg9) :=
  (W7_of_ne m ρ c main_arg9 (by decide)).trans (w6_a9 m ρ c)

theorem w8_v61 : W8 m ρ c (Proc.devRef .tc main_v61) = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  stretch_agg2 (W7 m ρ c) _ _ _ _ _ _ _ (w7_v48 m ρ c) (w7_v3 m ρ c) (w7_v6 m ρ c) (w7_v29 m ρ c)
theorem w8_rows : W8 m ρ c (Proc.devRef .tc main_v62) = Cert.ReferenceIdeal.Read.val_main_v86 (F := Ideal) (m ((c : Thread nD τ).loc main_arg7)) ∧ W8 m ρ c (Proc.devRef .tc main_v63) = Cert.ReferenceIdeal.Read.val_main_v107 (F := Ideal) (m ((c : Thread nD τ).loc main_arg8))
    ∧ W8 m ρ c (Proc.devRef .tc main_v64) = Cert.ReferenceIdeal.Read.val_main_v110 (F := Ideal) (m ((c : Thread nD τ).loc main_arg9)) :=
  stretch_rows2 (W7 m ρ c) _ _ _ (w7_a7 m ρ c) (w7_a8 m ρ c) (w7_a9 m ρ c)

/-- THE RESULT: after the second normalisation the result buffer holds the whole-array program's last stage of the
    argument arrays as launched. -/
theorem result : W9 m ρ c (Proc.devRef .tc main_v65) = Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (show W9 m ρ c (Proc.devRef .tc main_v65) = (dat3 (V8 m ρ) c).arrAt 4 cfg3.N from W9_arr m ρ c 4).trans ((NormTiles2.final (V8 m ρ) c).trans ?_)
  rw [show V8 m ρ c main_v61 = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from w8_v61 m ρ c,
    show V8 m ρ c main_v62 = Cert.ReferenceIdeal.Read.val_main_v86 (F := Ideal) (m ((c : Thread nD τ).loc main_arg7)) from (w8_rows m ρ c).1,
    show V8 m ρ c main_v63 = Cert.ReferenceIdeal.Read.val_main_v107 (F := Ideal) (m ((c : Thread nD τ).loc main_arg8)) from (w8_rows m ρ c).2.1,
    show V8 m ρ c main_v64 = Cert.ReferenceIdeal.Read.val_main_v110 (F := Ideal) (m ((c : Thread nD τ).loc main_arg9)) from (w8_rows m ρ c).2.2]
  exact (Cert.ReferenceIdeal.Stages.norm2 _ _ _ _ _ _ _ _ _ _).symm

end Fold

end Cert.KernelIdeal.Chain

end
-- ==== Proof.RefRun.lean ====
/-
  The whole-array program's run, read back in seven steps.

  The program is a straight line of 154 host operations. Every weakly fair execution terminates with each buffer at
  the fold of the operations over the launch memory. Read in one piece, the result's term would repeat every shared value
  (the edge lists, the edge weights, each biased row) at each of its uses; read in the program's own seven steps — the
  graph's normalisation, a product, an aggregation over the edges, a row normalisation, and those three again — each
  step's result is one stage of the operation-by-operation reading applied to the stages before it, and a shared
  value is never written out twice.
-/
import proofs.«133334_j49546742726739_1_alg».proof.Proof.Gen.ReferenceIdeal
import proofs.«133334_j49546742726739_1_alg».proof.Proof.RefRead
import Idealize.ShloMosaic.Lib.StableHlo.Run

noncomputable section

namespace Cert.ReferenceIdeal.HostRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The operations, step by step (a called function's operations stand in its call's place) -/

/-- The graph's normalisation: source and target lists with self loops, the degrees, `deg^(-1/2)` where the degree is positive, and the edge weights (%0 … %29). -/
abbrev opsGraph : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) main_call0.v0 id,
    TRef.unary main_call0.v0 main_call0.v1 (broadcastInDim S50000 ![] bcast_S_S50000),
    TRef.ternary (TRef.of (T := ⟨S50000, .i1⟩) main_v12) (TRef.of (T := ⟨S50000, .f32⟩) main_v13) main_call0.v1 main_call0.v2 select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The first dense product (%30). -/
abbrev opsProd1 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Gather the rows at the sources, scale by the edge weights, add up at the targets (… %43). -/
abbrev opsAgg1 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- Bias, normalise each row, scale, shift, clamp at zero (%44 … %71). -/
abbrev opsNorm1 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v46 main_cst_9 main_v47 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    nullary main_cst_10 (constant S_ .f32 0x43000000#32),
    unary main_cst_10 main_v49 (broadcastInDim S50000x1 ![] bcast_S_S50000x1 : (⟨S_, .f32⟩ : BufTy).Contents (Elt F) → (⟨S50000x1, .f32⟩ : BufTy).Contents (Elt F)),
    binary main_v48 main_v49 main_v50 (Host.divf : (⟨S50000x1, .f32⟩ : BufTy).Contents (Elt F) → (⟨S50000x1, .f32⟩ : BufTy).Contents (Elt F) → (⟨S50000x1, .f32⟩ : BufTy).Contents (Elt F)),
    unary main_v50 main_v51 (broadcastInDim S50000x128 ![0, 1] bcast_S50000x1_S50000x128_0_1 : (⟨S50000x1, .f32⟩ : BufTy).Contents (Elt F) → (⟨S50000x128, .f32⟩ : BufTy).Contents (Elt F)),
    binary main_v46 main_v51 main_v52 (subf : (⟨S50000x128, .f32⟩ : BufTy).Contents (Elt F) → (⟨S50000x128, .f32⟩ : BufTy).Contents (Elt F) → (⟨S50000x128, .f32⟩ : BufTy).Contents (Elt F)),
    binary main_v52 main_v52 main_v53 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v53 main_cst_11 main_v54 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v54 main_v55 (broadcastInDim S50000x1 ![0] bcast_S50000_S50000x1_0 : (⟨S50000, .f32⟩ : BufTy).Contents (Elt F) → (⟨S50000x1, .f32⟩ : BufTy).Contents (Elt F)),
    nullary main_cst_12 (constant S_ .f32 0x43000000#32),
    unary main_cst_12 main_v56 (broadcastInDim S50000x1 ![] bcast_S_S50000x1 : (⟨S_, .f32⟩ : BufTy).Contents (Elt F) → (⟨S50000x1, .f32⟩ : BufTy).Contents (Elt F)),
    binary main_v55 main_v56 main_v57 (Host.divf : (⟨S50000x1, .f32⟩ : BufTy).Contents (Elt F) → (⟨S50000x1, .f32⟩ : BufTy).Contents (Elt F) → (⟨S50000x1, .f32⟩ : BufTy).Contents (Elt F)),
    unary main_v50 main_v58 (broadcastInDim S50000x128 ![0, 1] bcast_S50000x1_S50000x128_0_1 : (⟨S50000x1, .f32⟩ : BufTy).Contents (Elt F) → (⟨S50000x128, .f32⟩ : BufTy).Contents (Elt F)),
    binary main_v46 main_v58 main_v59 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v60 (broadcastInDim S50000x1 ![] bcast_S_S50000x1 : (⟨S_, .f32⟩ : BufTy).Contents (Elt F) → (⟨S50000x1, .f32⟩ : BufTy).Contents (Elt F)),
    binary main_v57 main_v60 main_v61 (addf : (⟨S50000x1, .f32⟩ : BufTy).Contents (Elt F) → (⟨S50000x1, .f32⟩ : BufTy).Contents (Elt F) → (⟨S50000x1, .f32⟩ : BufTy).Contents (Elt F)),
    unary main_v61 main_v62 (Host.rsqrt : (⟨S50000x1, .f32⟩ : BufTy).Contents (Elt F) → (⟨S50000x1, .f32⟩ : BufTy).Contents (Elt F)),
    unary main_v62 main_v63 (broadcastInDim S50000x128 ![0, 1] bcast_S50000x1_S50000x128_0_1 : (⟨S50000x1, .f32⟩ : BufTy).Contents (Elt F) → (⟨S50000x128, .f32⟩ : BufTy).Contents (Elt F)),
    binary main_v59 main_v63 main_v64 (mulf : (⟨S50000x128, .f32⟩ : BufTy).Contents (Elt F) → (⟨S50000x128, .f32⟩ : BufTy).Contents (Elt F) → (⟨S50000x128, .f32⟩ : BufTy).Contents (Elt F)),
    unary main_arg4 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v64 main_v66 main_v67 (mulf : (⟨S50000x128, .f32⟩ : BufTy).Contents (Elt F) → (⟨S50000x128, .f32⟩ : BufTy).Contents (Elt F) → (⟨S50000x128, .f32⟩ : BufTy).Contents (Elt F)),
    unary main_arg5 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (TRef.of (T := ⟨S50000x128, .f32⟩) main_v70) main_call1.v0 main_call1.v1 maximumf ]

/-- The second dense product (%72). -/
abbrev opsProd2 : List (HloOp τ sig (Elt F)) :=
  [ binary main_v71 main_arg6 main_v72 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- Gather, scale, add up again (… %85). -/
abbrev opsAgg2 : List (HloOp τ sig (Elt F)) :=
  [ nullary main_c_14 (constantI S_ 32 0#32),
    unary main_c_14 main_v73 (broadcastInDim S850000 ![] bcast_S_S850000 : (⟨S_, .i32⟩ : BufTy).Contents (Elt F) → (⟨S850000, .i32⟩ : BufTy).Contents (Elt F)),
    binary main_v3 main_v73 main_v74 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v75 (broadcastInDim S850000 ![] bcast_S_S850000 : (⟨S_, .i32⟩ : BufTy).Contents (Elt F) → (⟨S850000, .i32⟩ : BufTy).Contents (Elt F)),
    binary main_v3 main_v75 main_v76 (addi : (⟨S850000, .i32⟩ : BufTy).Contents (Elt F) → (⟨S850000, .i32⟩ : BufTy).Contents (Elt F) → (⟨S850000, .i32⟩ : BufTy).Contents (Elt F)),
    ternary main_v74 main_v76 main_v3 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v77 main_v78 (broadcastInDim S850000x1 ![0] bcast_S850000_S850000x1_0 : (⟨S850000, .i32⟩ : BufTy).Contents (Elt F) → (⟨S850000x1, .i32⟩ : BufTy).Contents (Elt F)),
    binary main_v72 main_v78 main_v79 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v80 (broadcastInDim S850000x1 ![0] bcast_S850000_S850000x1_0 : (⟨S850000, .f32⟩ : BufTy).Contents (Elt F) → (⟨S850000x1, .f32⟩ : BufTy).Contents (Elt F)),
    unary main_v80 main_v81 (broadcastInDim S850000x64 ![0, 1] bcast_S850000x1_S850000x64_0_1 : (⟨S850000x1, .f32⟩ : BufTy).Contents (Elt F) → (⟨S850000x64, .f32⟩ : BufTy).Contents (Elt F)),
    binary main_v79 main_v81 main_v82 (mulf : (⟨S850000x64, .f32⟩ : BufTy).Contents (Elt F) → (⟨S850000x64, .f32⟩ : BufTy).Contents (Elt F) → (⟨S850000x64, .f32⟩ : BufTy).Contents (Elt F)),
    nullary main_cst_16 (constant S_ .f32 0x00000000#32),
    unary main_cst_16 main_v83 (broadcastInDim S50000x64 ![] bcast_S_S50000x64 : (⟨S_, .f32⟩ : BufTy).Contents (Elt F) → (⟨S50000x64, .f32⟩ : BufTy).Contents (Elt F)),
    unary main_v6 main_v84 (broadcastInDim S850000x1 ![0] bcast_S850000_S850000x1_0 : (⟨S850000, .i32⟩ : BufTy).Contents (Elt F) → (⟨S850000x1, .i32⟩ : BufTy).Contents (Elt F)),
    ternary main_v83 main_v84 main_v82 main_v85 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

/-- Bias, normalise, scale, shift, clamp, and divide each row by its clamped length (%86 … %121). -/
abbrev opsNorm2 : List (HloOp τ sig (Elt F)) :=
  [ unary main_arg7 main_v86 (broadcastInDim S1x64 ![1] bcast_S64_S1x64_1 : (⟨S64, .f32⟩ : BufTy).Contents (Elt F) → (⟨S1x64, .f32⟩ : BufTy).Contents (Elt F)),
    unary main_v86 main_v87 (broadcastInDim S50000x64 ![0, 1] bcast_S1x64_S50000x64_0_1 : (⟨S1x64, .f32⟩ : BufTy).Contents (Elt F) → (⟨S50000x64, .f32⟩ : BufTy).Contents (Elt F)),
    binary main_v85 main_v87 main_v88 (addf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v88 main_cst_17 main_v89 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v89 main_v90 (broadcastInDim S50000x1 ![0] bcast_S50000_S50000x1_0 : (⟨S50000, .f32⟩ : BufTy).Contents (Elt F) → (⟨S50000x1, .f32⟩ : BufTy).Contents (Elt F)),
    nullary main_cst_18 (constant S_ .f32 0x42800000#32),
    unary main_cst_18 main_v91 (broadcastInDim S50000x1 ![] bcast_S_S50000x1 : (⟨S_, .f32⟩ : BufTy).Contents (Elt F) → (⟨S50000x1, .f32⟩ : BufTy).Contents (Elt F)),
    binary main_v90 main_v91 main_v92 (Host.divf : (⟨S50000x1, .f32⟩ : BufTy).Contents (Elt F) → (⟨S50000x1, .f32⟩ : BufTy).Contents (Elt F) → (⟨S50000x1, .f32⟩ : BufTy).Contents (Elt F)),
    unary main_v92 main_v93 (broadcastInDim S50000x64 ![0, 1] bcast_S50000x1_S50000x64_0_1 : (⟨S50000x1, .f32⟩ : BufTy).Contents (Elt F) → (⟨S50000x64, .f32⟩ : BufTy).Contents (Elt F)),
    binary main_v88 main_v93 main_v94 (subf : (⟨S50000x64, .f32⟩ : BufTy).Contents (Elt F) → (⟨S50000x64, .f32⟩ : BufTy).Contents (Elt F) → (⟨S50000x64, .f32⟩ : BufTy).Contents (Elt F)),
    binary main_v94 main_v94 main_v95 (mulf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x00000000#32),
    binary main_v95 main_cst_19 main_v96 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v96 main_v97 (broadcastInDim S50000x1 ![0] bcast_S50000_S50000x1_0 : (⟨S50000, .f32⟩ : BufTy).Contents (Elt F) → (⟨S50000x1, .f32⟩ : BufTy).Contents (Elt F)),
    nullary main_cst_20 (constant S_ .f32 0x42800000#32),
    unary main_cst_20 main_v98 (broadcastInDim S50000x1 ![] bcast_S_S50000x1 : (⟨S_, .f32⟩ : BufTy).Contents (Elt F) → (⟨S50000x1, .f32⟩ : BufTy).Contents (Elt F)),
    binary main_v97 main_v98 main_v99 (Host.divf : (⟨S50000x1, .f32⟩ : BufTy).Contents (Elt F) → (⟨S50000x1, .f32⟩ : BufTy).Contents (Elt F) → (⟨S50000x1, .f32⟩ : BufTy).Contents (Elt F)),
    unary main_v92 main_v100 (broadcastInDim S50000x64 ![0, 1] bcast_S50000x1_S50000x64_0_1 : (⟨S50000x1, .f32⟩ : BufTy).Contents (Elt F) → (⟨S50000x64, .f32⟩ : BufTy).Contents (Elt F)),
    binary main_v88 main_v100 main_v101 (subf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x3727C5AC#32),
    unary main_cst_21 main_v102 (broadcastInDim S50000x1 ![] bcast_S_S50000x1 : (⟨S_, .f32⟩ : BufTy).Contents (Elt F) → (⟨S50000x1, .f32⟩ : BufTy).Contents (Elt F)),
    binary main_v99 main_v102 main_v103 (addf : (⟨S50000x1, .f32⟩ : BufTy).Contents (Elt F) → (⟨S50000x1, .f32⟩ : BufTy).Contents (Elt F) → (⟨S50000x1, .f32⟩ : BufTy).Contents (Elt F)),
    unary main_v103 main_v104 (Host.rsqrt : (⟨S50000x1, .f32⟩ : BufTy).Contents (Elt F) → (⟨S50000x1, .f32⟩ : BufTy).Contents (Elt F)),
    unary main_v104 main_v105 (broadcastInDim S50000x64 ![0, 1] bcast_S50000x1_S50000x64_0_1 : (⟨S50000x1, .f32⟩ : BufTy).Contents (Elt F) → (⟨S50000x64, .f32⟩ : BufTy).Contents (Elt F)),
    binary main_v101 main_v105 main_v106 (mulf : (⟨S50000x64, .f32⟩ : BufTy).Contents (Elt F) → (⟨S50000x64, .f32⟩ : BufTy).Contents (Elt F) → (⟨S50000x64, .f32⟩ : BufTy).Contents (Elt F)),
    unary main_arg8 main_v107 (broadcastInDim S1x64 ![1] bcast_S64_S1x64_1 : (⟨S64, .f32⟩ : BufTy).Contents (Elt F) → (⟨S1x64, .f32⟩ : BufTy).Contents (Elt F)),
    unary main_v107 main_v108 (broadcastInDim S50000x64 ![0, 1] bcast_S1x64_S50000x64_0_1 : (⟨S1x64, .f32⟩ : BufTy).Contents (Elt F) → (⟨S50000x64, .f32⟩ : BufTy).Contents (Elt F)),
    binary main_v106 main_v108 main_v109 (mulf : (⟨S50000x64, .f32⟩ : BufTy).Contents (Elt F) → (⟨S50000x64, .f32⟩ : BufTy).Contents (Elt F) → (⟨S50000x64, .f32⟩ : BufTy).Contents (Elt F)),
    unary main_arg9 main_v110 (broadcastInDim S1x64 ![1] bcast_S64_S1x64_1 : (⟨S64, .f32⟩ : BufTy).Contents (Elt F) → (⟨S1x64, .f32⟩ : BufTy).Contents (Elt F)),
    unary main_v110 main_v111 (broadcastInDim S50000x64 ![0, 1] bcast_S1x64_S50000x64_0_1 : (⟨S1x64, .f32⟩ : BufTy).Contents (Elt F) → (⟨S50000x64, .f32⟩ : BufTy).Contents (Elt F)),
    binary main_v109 main_v111 main_v112 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (TRef.of (T := ⟨S50000x64, .f32⟩) main_v112) main_call2.v0 main_call2.v1 maximumf,
    binary main_v113 main_v113 main_v114 (mulf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x00000000#32),
    binary main_v114 main_cst_22 main_v115 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v115 main_v116 (broadcastInDim S50000x1 ![0] bcast_S50000_S50000x1_0 : (⟨S50000, .f32⟩ : BufTy).Contents (Elt F) → (⟨S50000x1, .f32⟩ : BufTy).Contents (Elt F)),
    unary main_v116 main_v117 (Host.sqrt : (⟨S50000x1, .f32⟩ : BufTy).Contents (Elt F) → (⟨S50000x1, .f32⟩ : BufTy).Contents (Elt F)),
    nullary main_cst_23 (constant S_ .f32 0x2B8CBCCC#32),
    unary main_cst_23 main_v118 (broadcastInDim S50000x1 ![] bcast_S_S50000x1 : (⟨S_, .f32⟩ : BufTy).Contents (Elt F) → (⟨S50000x1, .f32⟩ : BufTy).Contents (Elt F)),
    binary main_v117 main_v118 main_v119 (maximumf : (⟨S50000x1, .f32⟩ : BufTy).Contents (Elt F) → (⟨S50000x1, .f32⟩ : BufTy).Contents (Elt F) → (⟨S50000x1, .f32⟩ : BufTy).Contents (Elt F)),
    unary main_v119 main_v120 (broadcastInDim S50000x64 ![0, 1] bcast_S50000x1_S50000x64_0_1 : (⟨S50000x1, .f32⟩ : BufTy).Contents (Elt F) → (⟨S50000x64, .f32⟩ : BufTy).Contents (Elt F)),
    binary main_v113 main_v120 main_v121 (Host.divf : (⟨S50000x64, .f32⟩ : BufTy).Contents (Elt F) → (⟨S50000x64, .f32⟩ : BufTy).Contents (Elt F) → (⟨S50000x64, .f32⟩ : BufTy).Contents (Elt F)) ]

/-- @main's 154 operations, in order. -/
abbrev ops : List (HloOp τ sig (Elt F)) :=
  opsGraph ++ (opsProd1 ++ (opsAgg1 ++ (opsNorm1 ++ (opsProd2 ++ (opsAgg2 ++ opsNorm2)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsGraph_sub : (opsGraph : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsProd1_sub : (opsProd1 : List (HloOp τ sig (Elt F))).Forall fun op => op.bufs ⊆ tcRefs τ sig :=
  binary_bufs_sub ..
theorem opsAgg1_sub : (opsAgg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsNorm1_sub : (opsNorm1 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsProd2_sub : (opsProd2 : List (HloOp τ sig (Elt F))).Forall fun op => op.bufs ⊆ tcRefs τ sig :=
  binary_bufs_sub ..
theorem opsAgg2_sub : (opsAgg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsNorm2_sub : (opsNorm2 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsGraph_sub op h
    rcases List.mem_append.mp h with h | h
    · exact List.forall_iff_forall_mem.mp opsProd1_sub op h
    rcases List.mem_append.mp h with h | h
    · exact List.forall_iff_forall_mem.mp opsAgg1_sub op h
    rcases List.mem_append.mp h with h | h
    · exact List.forall_iff_forall_mem.mp opsNorm1_sub op h
    rcases List.mem_append.mp h with h | h
    · exact List.forall_iff_forall_mem.mp opsProd2_sub op h
    rcases List.mem_append.mp h with h | h
    · exact List.forall_iff_forall_mem.mp opsAgg2_sub op h
    · exact List.forall_iff_forall_mem.mp opsNorm2_sub op h

/-- The fold over two lists in a row is the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## Each step over any contents, given the buffers it reads -/

set_option maxRecDepth 8192 in
/-- The first step over any contents whose edge list is `x1`: the two index lists and the edge weights. -/
theorem graph_step (V : Valuation τ sig (Elt F)) (x1 : (⟨S2x800000, .i32⟩ : BufTy).Contents (Elt F))
    (h1 : V (Proc.devRef .tc main_arg1) = x1) :
    after opsGraph V (Proc.devRef .tc main_v3) = val_main_v3 (F := F) x1
    ∧ after opsGraph V (Proc.devRef .tc main_v6) = val_main_v6 (F := F) x1
    ∧ after opsGraph V (Proc.devRef .tc main_v29) = val_main_v29 (F := F) x1 := by
  subst h1
  refine ⟨?_, ?_, ?_⟩
  · after_results_simp; rfl
  · after_results_simp; rfl
  · after_results_simp; rfl

/-- The first product of the two arrays it finds. -/
theorem prod1_step (V : Valuation τ sig (Elt F)) (x0 : (⟨S50000x128, .f32⟩ : BufTy).Contents (Elt F)) (x2 : (⟨S128x128, .f32⟩ : BufTy).Contents (Elt F))
    (h0 : V (Proc.devRef .tc main_arg0) = x0) (h2 : V (Proc.devRef .tc main_arg2) = x2) :
    after opsProd1 V (Proc.devRef .tc main_v30) = val_main_v30 (F := F) x0 x2 := by
  subst h0 h2
  after_results_simp; rfl

set_option maxRecDepth 8192 in
/-- The first aggregation, of the product it finds over the edge lists and weights it finds. -/
theorem agg1_step (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F))
    (h30 : V (Proc.devRef .tc main_v30) = val_main_v30 (F := F) x0 x2) (h3 : V (Proc.devRef .tc main_v3) = val_main_v3 (F := F) x1)
    (h6 : V (Proc.devRef .tc main_v6) = val_main_v6 (F := F) x1) (h29 : V (Proc.devRef .tc main_v29) = val_main_v29 (F := F) x1) :
    after opsAgg1 V (Proc.devRef .tc main_v43) = val_main_v43 (F := F) x0 x1 x2 := by
  after_results_simp
  rw [h30, h3, h6, h29]
  rfl

set_option maxRecDepth 8192 in
/-- The first normalisation, of the aggregated array it finds and the three parameter vectors it finds. -/
theorem norm1_step (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F))
    (h43 : V (Proc.devRef .tc main_v43) = val_main_v43 (F := F) x0 x1 x2)
    (h3 : V (Proc.devRef .tc main_arg3) = x3) (h4 : V (Proc.devRef .tc main_arg4) = x4) (h5 : V (Proc.devRef .tc main_arg5) = x5) :
    after opsNorm1 V (Proc.devRef .tc main_v71) = val_main_v71 (F := F) x0 x1 x2 x3 x4 x5 := by
  subst h3 h4 h5
  after_results_simp
  rw [h43]
  rfl

/-- The second product. -/
theorem prod2_step (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x64, .f32⟩ : BufTy).Contents (Elt F))
    (h71 : V (Proc.devRef .tc main_v71) = val_main_v71 (F := F) x0 x1 x2 x3 x4 x5) (h6 : V (Proc.devRef .tc main_arg6) = x6) :
    after opsProd2 V (Proc.devRef .tc main_v72) = val_main_v72 (F := F) x0 x1 x2 x3 x4 x5 x6 := by
  subst h6
  after_results_simp
  rw [h71]
  rfl

set_option maxRecDepth 8192 in
/-- The second aggregation. -/
theorem agg2_step (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x64, .f32⟩ : BufTy).Contents (Elt F))
    (h72 : V (Proc.devRef .tc main_v72) = val_main_v72 (F := F) x0 x1 x2 x3 x4 x5 x6) (h3 : V (Proc.devRef .tc main_v3) = val_main_v3 (F := F) x1)
    (h6 : V (Proc.devRef .tc main_v6) = val_main_v6 (F := F) x1) (h29 : V (Proc.devRef .tc main_v29) = val_main_v29 (F := F) x1) :
    after opsAgg2 V (Proc.devRef .tc main_v85) = val_main_v85 (F := F) x0 x1 x2 x3 x4 x5 x6 := by
  after_results_simp
  rw [h72, h3, h6, h29]
  rfl

set_option maxRecDepth 8192 in
/-- The second normalisation, with each row divided by its clamped length: the program's result. -/
theorem norm2_step (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F))
    (h85 : V (Proc.devRef .tc main_v85) = val_main_v85 (F := F) x0 x1 x2 x3 x4 x5 x6)
    (h7 : V (Proc.devRef .tc main_arg7) = x7) (h8 : V (Proc.devRef .tc main_arg8) = x8) (h9 : V (Proc.devRef .tc main_arg9) = x9) :
    after opsNorm2 V (Proc.devRef .tc main_v121) = val_main_v121 (F := F) x0 x1 x2 x3 x4 x5 x6 x7 x8 x9 := by
  subst h7 h8 h9
  after_results_simp
  rw [h85]
  rfl

/-! ## The fold, read from the launch memory -/

set_option maxHeartbeats 61600000 in
set_option maxRecDepth 8192 in
/-- After all 154 operations the result buffer holds the last stage of the operation-by-operation reading, applied to
    the argument arrays as launched: each step's inputs are the steps before it, or arguments no operation writes. -/
theorem result_eq (m : (ℓ : Loc nD τ sig) → Buf (Elt F) ℓ) (d : Dev nD) :
    after (ops (F := F)) (launchContents m d) (Proc.devRef .tc main_v121)
      = val_main_v121 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  obtain ⟨u1_v3, u1_v6, u1_v29⟩ := graph_step (F := F) (launchContents m d) _ rfl
  have u1_a0 : (after opsGraph (launchContents m d)) (Proc.devRef .tc main_arg0) = m ((d.tc : Thread nD τ).loc main_arg0) := by after_results_simp
  have u1_a2 : (after opsGraph (launchContents m d)) (Proc.devRef .tc main_arg2) = m ((d.tc : Thread nD τ).loc main_arg2) := by after_results_simp
  have u2_v30 := prod1_step (F := F) (after opsGraph (launchContents m d)) _ _ u1_a0 u1_a2
  have u2_v3 : (after opsProd1 (after opsGraph (launchContents m d))) (Proc.devRef .tc main_v3) = val_main_v3 (F := F) (m ((d.tc : Thread nD τ).loc main_arg1)) := by after_results_simp; rfl
  have u2_v6 : (after opsProd1 (after opsGraph (launchContents m d))) (Proc.devRef .tc main_v6) = val_main_v6 (F := F) (m ((d.tc : Thread nD τ).loc main_arg1)) := by after_results_simp; rfl
  have u2_v29 : (after opsProd1 (after opsGraph (launchContents m d))) (Proc.devRef .tc main_v29) = val_main_v29 (F := F) (m ((d.tc : Thread nD τ).loc main_arg1)) := by after_results_simp; rfl
  have u3_v43 := agg1_step (F := F) (after opsProd1 (after opsGraph (launchContents m d))) _ _ _ u2_v30 u2_v3 u2_v6 u2_v29
  have u3_a3 : (after opsAgg1 (after opsProd1 (after opsGraph (launchContents m d)))) (Proc.devRef .tc main_arg3) = m ((d.tc : Thread nD τ).loc main_arg3) := by after_results_simp
  have u3_a4 : (after opsAgg1 (after opsProd1 (after opsGraph (launchContents m d)))) (Proc.devRef .tc main_arg4) = m ((d.tc : Thread nD τ).loc main_arg4) := by after_results_simp
  have u3_a5 : (after opsAgg1 (after opsProd1 (after opsGraph (launchContents m d)))) (Proc.devRef .tc main_arg5) = m ((d.tc : Thread nD τ).loc main_arg5) := by after_results_simp
  have u4_v71 := norm1_step (F := F) (after opsAgg1 (after opsProd1 (after opsGraph (launchContents m d)))) _ _ _ _ _ _ u3_v43 u3_a3 u3_a4 u3_a5
  have u4_a6 : (after opsNorm1 (after opsAgg1 (after opsProd1 (after opsGraph (launchContents m d))))) (Proc.devRef .tc main_arg6) = m ((d.tc : Thread nD τ).loc main_arg6) := by after_results_simp
  have u5_v72 := prod2_step (F := F) (after opsNorm1 (after opsAgg1 (after opsProd1 (after opsGraph (launchContents m d))))) _ _ _ _ _ _ _ u4_v71 u4_a6
  have u5_v3 : (after opsProd2 (after opsNorm1 (after opsAgg1 (after opsProd1 (after opsGraph (launchContents m d)))))) (Proc.devRef .tc main_v3) = val_main_v3 (F := F) (m ((d.tc : Thread nD τ).loc main_arg1)) := by after_results_simp; rfl
  have u5_v6 : (after opsProd2 (after opsNorm1 (after opsAgg1 (after opsProd1 (after opsGraph (launchContents m d)))))) (Proc.devRef .tc main_v6) = val_main_v6 (F := F) (m ((d.tc : Thread nD τ).loc main_arg1)) := by after_results_simp; rfl
  have u5_v29 : (after opsProd2 (after opsNorm1 (after opsAgg1 (after opsProd1 (after opsGraph (launchContents m d)))))) (Proc.devRef .tc main_v29) = val_main_v29 (F := F) (m ((d.tc : Thread nD τ).loc main_arg1)) := by after_results_simp; rfl
  have u6_v85 := agg2_step (F := F) (after opsProd2 (after opsNorm1 (after opsAgg1 (after opsProd1 (after opsGraph (launchContents m d)))))) _ _ _ _ _ _ _ u5_v72 u5_v3 u5_v6 u5_v29
  have u6_a7 : (after opsAgg2 (after opsProd2 (after opsNorm1 (after opsAgg1 (after opsProd1 (after opsGraph (launchContents m d))))))) (Proc.devRef .tc main_arg7) = m ((d.tc : Thread nD τ).loc main_arg7) := by after_results_simp
  have u6_a8 : (after opsAgg2 (after opsProd2 (after opsNorm1 (after opsAgg1 (after opsProd1 (after opsGraph (launchContents m d))))))) (Proc.devRef .tc main_arg8) = m ((d.tc : Thread nD τ).loc main_arg8) := by after_results_simp
  have u6_a9 : (after opsAgg2 (after opsProd2 (after opsNorm1 (after opsAgg1 (after opsProd1 (after opsGraph (launchContents m d))))))) (Proc.devRef .tc main_arg9) = m ((d.tc : Thread nD τ).loc main_arg9) := by after_results_simp
  have u7 := norm2_step (F := F) (after opsAgg2 (after opsProd2 (after opsNorm1 (after opsAgg1 (after opsProd1 (after opsGraph (launchContents m d))))))) _ _ _ _ _ _ _ _ _ _ u6_v85 u6_a7 u6_a8 u6_a9
  rw [show (ops (F := F)) = opsGraph ++ (opsProd1 ++ (opsAgg1 ++ (opsNorm1 ++ (opsProd2 ++ (opsAgg2 ++ opsNorm2))))) from rfl,
    after_append, after_append, after_append, after_append, after_append, after_append]
  exact u7

set_option maxHeartbeats 61600000 in
set_option maxRecDepth 8192 in
/-- An argument buffer after all the operations: no operation writes it. -/
theorem arg_kept (m : (ℓ : Loc nD τ sig) → Buf (Elt F) ℓ) (d : Dev nD) :
    after (ops (F := F)) (launchContents m d) (Proc.devRef .tc main_arg0) = m ((d.tc : Thread nD τ).loc main_arg0)
    ∧     after (ops (F := F)) (launchContents m d) (Proc.devRef .tc main_arg1) = m ((d.tc : Thread nD τ).loc main_arg1)
    ∧     after (ops (F := F)) (launchContents m d) (Proc.devRef .tc main_arg2) = m ((d.tc : Thread nD τ).loc main_arg2)
    ∧     after (ops (F := F)) (launchContents m d) (Proc.devRef .tc main_arg3) = m ((d.tc : Thread nD τ).loc main_arg3)
    ∧     after (ops (F := F)) (launchContents m d) (Proc.devRef .tc main_arg4) = m ((d.tc : Thread nD τ).loc main_arg4)
    ∧     after (ops (F := F)) (launchContents m d) (Proc.devRef .tc main_arg5) = m ((d.tc : Thread nD τ).loc main_arg5)
    ∧     after (ops (F := F)) (launchContents m d) (Proc.devRef .tc main_arg6) = m ((d.tc : Thread nD τ).loc main_arg6)
    ∧     after (ops (F := F)) (launchContents m d) (Proc.devRef .tc main_arg7) = m ((d.tc : Thread nD τ).loc main_arg7)
    ∧     after (ops (F := F)) (launchContents m d) (Proc.devRef .tc main_arg8) = m ((d.tc : Thread nD τ).loc main_arg8)
    ∧     after (ops (F := F)) (launchContents m d) (Proc.devRef .tc main_arg9) = m ((d.tc : Thread nD τ).loc main_arg9) := by
  rw [show (ops (F := F)) = opsGraph ++ (opsProd1 ++ (opsAgg1 ++ (opsNorm1 ++ (opsProd2 ++ (opsAgg2 ++ opsNorm2))))) from rfl,
    after_append, after_append, after_append, after_append, after_append, after_append]
  refine ⟨?_, ?_, ?_, ?_, ?_, ?_, ?_, ?_, ?_, ?_⟩ <;> after_results_simp

/-! ## The run -/

/-- On every device, from any memory with zero counters: every weakly fair execution of the whole-array program
    terminates with its result at the last stage of the operation-by-operation reading of the arguments as launched,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v121) = val_main_v121 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9) :=
  (θ_run defs _ _).mono (fun _ h d =>
      have k := arg_kept (F := F) m d
      ⟨(h d main_v121).trans (result_eq m d),
       (h d main_arg0).trans k.1, (h d main_arg1).trans k.2.1, (h d main_arg2).trans k.2.2.1, (h d main_arg3).trans k.2.2.2.1,
       (h d main_arg4).trans k.2.2.2.2.1, (h d main_arg5).trans k.2.2.2.2.2.1, (h d main_arg6).trans k.2.2.2.2.2.2.1,
       (h d main_arg7).trans k.2.2.2.2.2.2.2.1, (h d main_arg8).trans k.2.2.2.2.2.2.2.2.1, (h d main_arg9).trans k.2.2.2.2.2.2.2.2.2⟩)
    (run_seq scopedRefs_eq scopedSems_eq defs main (fun _ => ops) main_eq (fun _ => ops_sub) m ρ)

end Cert.ReferenceIdeal.HostRun

end
-- ==== Proof.lean ====
/-
  A two-layer graph-convolution encoder, tiled against whole.

  Both programs compute, for node features `x`, an edge list, and per layer a weight matrix `W`, a bias `b`, a scale `g`
  and a shift `β`: the symmetric normalisation of the graph with self loops (each edge weighted by `deg^(-1/2)` of its
  two ends); then twice `h = x · W`, the weighted sum of `h` over each node's incoming edges, `+ b`, each row normalised
  to mean 0 and variance 1 (over `D` features, `ε` added to the variance), `· g + β`, and clamped at 0; and last each row
  divided by its Euclidean length (clamped below). One program runs the two products and the two row normalisations
  in blocks of 2000 rows, 25 blocks each, and narrows the products' operands to a shorter float format first; the other
  runs everything on whole arrays.

  On the extended reals the narrowing is the identity, a block of a product or of a row normalisation is the same
  function of the same rows as the whole array's, and the blocks cover the rows: so each tiled region leaves exactly the
  whole-array operation's result (modules MatmulBlock / NormBlock: one entry of a block; ProductTiles / NormTiles: from
  blocks to the array; RefStages: the whole-array operations as the same functions). Everything between the regions is
  the same host operations in both programs, applied to equal inputs (KernelChain, RefRun). No law of arithmetic is
  needed beyond that — every sum is taken in the same order on both sides — and the precondition is never opened.

  The idealisation rewrote nothing, so `preserves` asks nothing.
-/
import proofs.«133334_j49546742726739_1_alg».proof.Defs
import proofs.«133334_j49546742726739_1_alg».proof.Proof.Gen.Kernel
import proofs.«133334_j49546742726739_1_alg».proof.Proof.Gen.Kernel.Frame
import proofs.«133334_j49546742726739_1_alg».proof.Proof.Gen.KernelIdeal
import proofs.«133334_j49546742726739_1_alg».proof.Proof.Gen.KernelIdeal.Frame
import proofs.«133334_j49546742726739_1_alg».proof.Proof.Gen.ReferenceIdeal
import proofs.«133334_j49546742726739_1_alg».proof.Proof.Gen.Pre_finite_inputs
import proofs.«133334_j49546742726739_1_alg».proof.Proof.KernelRun
import proofs.«133334_j49546742726739_1_alg».proof.Proof.KernelChain
import proofs.«133334_j49546742726739_1_alg».proof.Proof.RefRun
import Idealize.ShloMosaic.Adequacy
import Idealize.ShloMosaic.Init

noncomputable section

namespace Cert.Proof

open Idealize.ShloMosaic Idealize.SL.Sem

/-- The tiled program as printed runs to its end without a fault and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- And the whole-array program: its run, with the result forgotten. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealisation rewrote no operation: there is nothing to state. -/
theorem preserves : Cert.preserves_Kernel_KernelIdeal := trivial

/-- From memories that agree on the arguments both programs end with the same array: the whole-array program's last
    stage of the arguments — the tiled program reaches it region by region, the whole-array program operation by
    operation. -/
theorem algebraic : Cert.algebraic_KernelIdeal_ReferenceIdeal := by
  intro m ρ m' ρ' _ hagree
  refine ⟨fun c => Cert.ReferenceIdeal.Read.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c => ⟨(h c).1.trans (Cert.KernelIdeal.Chain.result m ρ c), (h c).2⟩)
      (Cert.KernelIdeal.ValueRun.run (F := Ideal) m ρ)
  · refine (θ_run Cert.ReferenceIdeal.defs _ _).mono (fun _ h c => ⟨(h c).1.trans ?_, (h c).2⟩) (Cert.ReferenceIdeal.HostRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
